-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x18 : Shape := ⟨2, ![1000000, 18]⟩
abbrev S18x16 : Shape := ⟨2, ![18, 16]⟩
abbrev S16 : Shape := ⟨1, ![16]⟩
abbrev S16x2 : Shape := ⟨2, ![16, 2]⟩
abbrev S2 : Shape := ⟨1, ![2]⟩
abbrev S2x4000000 : Shape := ⟨2, ![2, 4000000]⟩
abbrev S_ : Shape := ⟨0, ![]⟩

class Facts : Prop where
  bcast_S_S1000000x18 : S_.BroadcastsInDim S1000000x18 (![] : Fin 0 → Fin S1000000x18.rank)
  reducesTo_S1000000x18_S_d0_1 : S1000000x18.ReducesTo [0, 1] S_
  h_S_ : 0 < S_.numel
  bcast_S_S18x16 : S_.BroadcastsInDim S18x16 (![] : Fin 0 → Fin S18x16.rank)
  reducesTo_S18x16_S_d0_1 : S18x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x18 .f32) (main_arg1 : FVec F S18x16 .f32) (main_arg2 : FVec F S16 .f32) (main_arg3 : FVec F S16x2 .f32) (main_arg4 : FVec F S2 .f32) (main_arg5 : IVec S2x4000000 32) : IVec S_ 1 :=
  let main_v0 : FVec F S1000000x18 .f32 := Host.absf main_arg0
  let main_cst : FVec F S_ .f32 := constant S_ .f32 0x7F800000#32
  let main_v1 : FVec F S1000000x18 .f32 := broadcastInDim S1000000x18 ![] bcast_S_S1000000x18 main_cst
  let main_v2 : IVec S1000000x18 1 := cmpf .olt main_v0 main_v1
  let main_c : IVec S_ 1 := constantI S_ 1 1#1
  let main_v3 : IVec S_ 1 := (fun x v => Host.reduce IntOp.andi x v reducesTo_S1000000x18_S_d0_1 h_S_) main_v2 main_c
  let main_v4 : FVec F S18x16 .f32 := Host.absf main_arg1
  let main_cst_0 : FVec F S_ .f32 := constant S_ .f32 0x7F800000#32
  let main_v5 : FVec F S18x16 .f32 := broadcastInDim S18x16 ![] bcast_S_S18x16 main_cst_0
  let main_v6 : IVec S18x16 1 := cmpf .olt main_v4 main_v5
  let main_c_1 : IVec S_ 1 := constantI S_ 1 1#1
  let main_v7 : IVec S_ 1 := (fun x v => Host.reduce IntOp.andi x v reducesTo_S18x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg3
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg4 main_v13 main_v16
-- ==== Kernel.lean ====
abbrev S1000000x18 : Shape := ⟨2, ![1000000, 18]⟩
abbrev S18x16 : Shape := ⟨2, ![18, 16]⟩
abbrev S16 : Shape := ⟨1, ![16]⟩
abbrev S16x2 : Shape := ⟨2, ![16, 2]⟩
abbrev S2 : Shape := ⟨1, ![2]⟩
abbrev S2x4000000 : Shape := ⟨2, ![2, 4000000]⟩
abbrev S1000000 : Shape := ⟨1, ![1000000]⟩
abbrev S1x4000000 : Shape := ⟨2, ![1, 4000000]⟩
abbrev S4000000 : Shape := ⟨1, ![4000000]⟩
abbrev S5000000 : Shape := ⟨1, ![5000000]⟩
abbrev S_ : Shape := ⟨0, ![]⟩
abbrev S5000000x1 : Shape := ⟨2, ![5000000, 1]⟩
abbrev S5000000x18 : Shape := ⟨2, ![5000000, 18]⟩
abbrev S1x16 : Shape := ⟨2, ![1, 16]⟩
abbrev S1000000x16 : Shape := ⟨2, ![1000000, 16]⟩
abbrev S10000x18 : Shape := ⟨2, ![10000, 18]⟩
abbrev S10000x16 : Shape := ⟨2, ![10000, 16]⟩
abbrev S5000000x16 : Shape := ⟨2, ![5000000, 16]⟩
abbrev S1x2 : Shape := ⟨2, ![1, 2]⟩
abbrev S1000000x2 : Shape := ⟨2, ![1000000, 2]⟩
abbrev S10000x2 : Shape := ⟨2, ![10000, 2]⟩
abbrev S10000 : Shape := ⟨1, ![10000]⟩
abbrev S10000x1 : Shape := ⟨2, ![10000, 1]⟩

abbrev nBuf : Space → Nat
  | .hbm => 85
  | .vmem => 12
  | .smem => 0
  | _ => 0

abbrev bufTy : (tb : Table) → Fin (tcTables nBuf tb) → BufTy
  | .hbm, ⟨0, _⟩ => ⟨S1000000x18, .f32⟩
  | .hbm, ⟨1, _⟩ => ⟨S18x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x4000000, .i32⟩
  | .hbm, ⟨6, _⟩ => ⟨S1000000, .i32⟩
  | .hbm, ⟨7, _⟩ => ⟨S1x4000000, .i32⟩
  | .hbm, ⟨8, _⟩ => ⟨S4000000, .i32⟩
  | .hbm, ⟨9, _⟩ => ⟨S5000000, .i32⟩
  | .hbm, ⟨10, _⟩ => ⟨S1x4000000, .i32⟩
  | .hbm, ⟨11, _⟩ => ⟨S4000000, .i32⟩
  | .hbm, ⟨12, _⟩ => ⟨S5000000, .i32⟩
  | .hbm, ⟨13, _⟩ => ⟨S_, .f32⟩
  | .hbm, ⟨14, _⟩ => ⟨S5000000, .f32⟩
  | .hbm, ⟨15, _⟩ => ⟨S_, .f32⟩
  | .hbm, ⟨16, _⟩ => ⟨S1000000, .f32⟩
  | .hbm, ⟨17, _⟩ => ⟨S5000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .i32⟩
  | .hbm, ⟨31, _⟩ => ⟨S5000000, .i32⟩
  | .hbm, ⟨32, _⟩ => ⟨S5000000, .i1⟩
  | .hbm, ⟨33, _⟩ => ⟨S_, .i32⟩
  | .hbm, ⟨34, _⟩ => ⟨S5000000, .i32⟩
  | .hbm, ⟨35, _⟩ => ⟨S5000000, .i32⟩
  | .hbm, ⟨36, _⟩ => ⟨S5000000, .i32⟩
  | .hbm, ⟨37, _⟩ => ⟨S5000000x1, .i32⟩
  | .hbm, ⟨38, _⟩ => ⟨S5000000, .f32⟩
  | .hbm, ⟨39, _⟩ => ⟨S_, .i32⟩
  | .hbm, ⟨40, _⟩ => ⟨S5000000, .i32⟩
  | .hbm, ⟨41, _⟩ => ⟨S5000000, .i1⟩
  | .hbm, ⟨42, _⟩ => ⟨S_, .i32⟩
  | .hbm, ⟨43, _⟩ => ⟨S5000000, .i32⟩
  | .hbm, ⟨44, _⟩ => ⟨S5000000, .i32⟩
  | .hbm, ⟨45, _⟩ => ⟨S5000000, .i32⟩
  | .hbm, ⟨46, _⟩ => ⟨S5000000x1, .i32⟩
  | .hbm, ⟨47, _⟩ => ⟨S5000000, .f32⟩
  | .hbm, ⟨48, _⟩ => ⟨S5000000, .f32⟩
  | .hbm, ⟨49, _⟩ => ⟨S_, .i32⟩
  | .hbm, ⟨50, _⟩ => ⟨S5000000, .i32⟩
  | .hbm, ⟨51, _⟩ => ⟨S5000000, .i1⟩
  | .hbm, ⟨52, _⟩ => ⟨S_, .i32⟩
  | .hbm, ⟨53, _⟩ => ⟨S5000000, .i32⟩
  | .hbm, ⟨54, _⟩ => ⟨S5000000, .i32⟩
  | .hbm, ⟨55, _⟩ => ⟨S5000000, .i32⟩
  | .hbm, ⟨56, _⟩ => ⟨S5000000x1, .i32⟩
  | .hbm, ⟨57, _⟩ => ⟨S5000000x18, .f32⟩
  | .hbm, ⟨58, _⟩ => ⟨S5000000x1, .f32⟩
  | .hbm, ⟨59, _⟩ => ⟨S5000000x18, .f32⟩
  | .hbm, ⟨60, _⟩ => ⟨S5000000x18, .f32⟩
  | .hbm, ⟨61, _⟩ => ⟨S_, .f32⟩
  | .hbm, ⟨62, _⟩ => ⟨S1000000x18, .f32⟩
  | .hbm, ⟨63, _⟩ => ⟨S5000000x1, .i32⟩
  | .hbm, ⟨64, _⟩ => ⟨S1000000x18, .f32⟩
  | .hbm, ⟨65, _⟩ => ⟨S1x16, .f32⟩
  | .hbm, ⟨66, _⟩ => ⟨S1000000x16, .f32⟩
  | .hbm, ⟨67, _⟩ => ⟨S_, .i32⟩
  | .hbm, ⟨68, _⟩ => ⟨S5000000, .i32⟩
  | .hbm, ⟨69, _⟩ => ⟨S5000000, .i1⟩
  | .hbm, ⟨70, _⟩ => ⟨S_, .i32⟩
  | .hbm, ⟨71, _⟩ => ⟨S5000000, .i32⟩
  | .hbm, ⟨72, _⟩ => ⟨S5000000, .i32⟩
  | .hbm, ⟨73, _⟩ => ⟨S5000000, .i32⟩
  | .hbm, ⟨74, _⟩ => ⟨S5000000x1, .i32⟩
  | .hbm, ⟨75, _⟩ => ⟨S5000000x16, .f32⟩
  | .hbm, ⟨76, _⟩ => ⟨S5000000x1, .f32⟩
  | .hbm, ⟨77, _⟩ => ⟨S5000000x16, .f32⟩
  | .hbm, ⟨78, _⟩ => ⟨S5000000x16, .f32⟩
  | .hbm, ⟨79, _⟩ => ⟨S_, .f32⟩
  | .hbm, ⟨80, _⟩ => ⟨S1000000x16, .f32⟩
  | .hbm, ⟨81, _⟩ => ⟨S5000000x1, .i32⟩
  | .hbm, ⟨82, _⟩ => ⟨S1000000x16, .f32⟩
  | .hbm, ⟨83, _⟩ => ⟨S1x2, .f32⟩
  | .hbm, ⟨84, _⟩ => ⟨S1000000x2, .f32⟩
  | .local _ .vmem, ⟨0, _⟩ => ⟨S10000x18, .f32⟩
  | .local _ .vmem, ⟨1, _⟩ => ⟨S10000x18, .f32⟩
  | .local _ .vmem, ⟨2, _⟩ => ⟨S18x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S16x2, .f32⟩
  | .local _ .vmem, ⟨9, _⟩ => ⟨S1x2, .f32⟩
  | .local _ .vmem, ⟨10, _⟩ => ⟨S10000x2, .f32⟩
  | .local _ .vmem, ⟨11, _⟩ => ⟨S10000x2, .f32⟩
  | _, _ => ⟨S1000000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x4000000_S1x4000000_0_0 : S2x4000000.Slices ![0, 0] S1x4000000
  shapeCasts_S1x4000000_S4000000 : S1x4000000.ShapeCasts S4000000
  concatenates_S4000000_S1000000_S5000000_d0 : Shape.Concatenates [S4000000, S1000000] S5000000 0
  slices_S2x4000000_S1x4000000_1_0 : S2x4000000.Slices ![1, 0] S1x4000000
  bcast_S_S5000000 : S_.BroadcastsInDim S5000000 (![] : Fin 0 → Fin S5000000.rank)
  bcast_S_S1000000 : S_.BroadcastsInDim S1000000 (![] : Fin 0 → Fin S1000000.rank)
  bcast_S5000000_S5000000x1_0 : S5000000.BroadcastsInDim S5000000x1 (![0] : Fin 1 → Fin S5000000x1.rank)
  bcast_S5000000x1_S5000000x18_0_1 : S5000000x1.BroadcastsInDim S5000000x18 (![0, 1] : Fin 2 → Fin S5000000x18.rank)
  bcast_S_S1000000x18 : S_.BroadcastsInDim S1000000x18 (![] : Fin 0 → Fin S1000000x18.rank)
  shapeCasts_S16_S1x16 : S16.ShapeCasts S1x16
  inb_S10000x18_S10000x18_0_0 : ∀ a, (![0, 0] : Fin 2 → Nat) a + S10000x18.size a ≤ S10000x18.size a
  h_S10000x18 : 0 < S10000x18.numel
  shapeCasts_S10000x18_S10000x18 : S10000x18.ShapeCasts S10000x18
  bitsLt_bf16_f32 : FTy.bits .bf16 < FTy.bits .f32
  inb_S18x16_S18x16_0_0 : ∀ a, (![0, 0] : Fin 2 → Nat) a + S18x16.size a ≤ S18x16.size a
  h_S18x16 : 0 < S18x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S5000000x1_S5000000x16_0_1 : S5000000x1.BroadcastsInDim S5000000x16 (![0, 1] : Fin 2 → Fin S5000000x16.rank)
  bcast_S_S1000000x16 : S_.BroadcastsInDim S1000000x16 (![] : Fin 0 → Fin S1000000x16.rank)
  shapeCasts_S2_S1x2 : S2.ShapeCasts S1x2
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  inb_S10000x2_S10000x2_0_0 : ∀ a, (![0, 0] : Fin 2 → Nat) a + S10000x2.size a ≤ S10000x2.size a
  h_S10000x2 : 0 < S10000x2.numel
  scatter_S1000000_S5000000x1_S5000000_n_0_0_1_wf : ScatterDims.WF S1000000 S5000000x1 S5000000 [] [0] [0] 1
  gather_S1000000_S5000000x1_S5000000_n_0_n_n_0_1_1_wf : GatherDims.WF S1000000 S5000000x1 S5000000 [] [0] [] [0] [] 1 ![1]
  gather_S1000000x18_S5000000x1_S5000000x18_1_0_n_n_0_1_118_wf : GatherDims.WF S1000000x18 S5000000x1 S5000000x18 [1] [0] [] [0] [] 1 ![1, 18]
  scatter_S1000000x18_S5000000x1_S5000000x18_1_0_0_1_wf : ScatterDims.WF S1000000x18 S5000000x1 S5000000x18 [1] [0] [0] 1
  dot_S10000x18_S18x16_S10000x16_1_0_0_1_n_n_wf : DotDims.WF S10000x18 S18x16 S10000x16 [1] [0] [0] [1] [] []
  gather_S1000000x16_S5000000x1_S5000000x16_1_0_n_n_0_1_116_wf : GatherDims.WF S1000000x16 S5000000x1 S5000000x16 [1] [0] [] [0] [] 1 ![1, 16]
  scatter_S1000000x16_S5000000x1_S5000000x16_1_0_0_1_wf : ScatterDims.WF S1000000x16 S5000000x1 S5000000x16 [1] [0] [0] 1
  dot_S10000x16_S16x2_S10000x2_1_0_0_1_n_n_wf : DotDims.WF S10000x16 S16x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x18.size a ≤ S1000000x18.size a
  hwx0_0 : ∀ i : grid0.Coords, EltTy.bits .f32 = 32 ∨ (Rect.block (s := S1000000x18) S10000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x16.size a ≤ S18x16.size a
  hwx0_1 : ∀ i : grid0.Coords, EltTy.bits .f32 = 32 ∨ (Rect.block (s := S18x16) S18x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S1000000x16.size a
  hwx0_3 : ∀ i : grid0.Coords, EltTy.bits .f32 = 32 ∨ (Rect.block (s := S1000000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S1000000x16.size a
  hwx1_0 : ∀ i : grid1.Coords, EltTy.bits .f32 = 32 ∨ (Rect.block (s := S1000000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2.size a ≤ S1x2.size a
  hwx1_2 : ∀ i : grid1.Coords, EltTy.bits .f32 = 32 ∨ (Rect.block (s := S1x2) S1x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S1000000x2.size a
  hwx1_3 : ∀ i : grid1.Coords, EltTy.bits .f32 = 32 ∨ (Rect.block (s := S1000000x2) S10000x2.size (cc1_transform_3 i) (hinb1_3 i)).WholeWords (EltTy.packing .f32)

variable [Facts₀]

def scatter_S1000000_S5000000x1_S5000000_n_0_0_1 : ScatterDims S1000000 S5000000x1 S5000000 where
  updateWindowDims := []
  insertedWindowDims := [0]
  scatterDimsToOperandDims := [0]
  indexVectorDim := 1
  wf := scatter_S1000000_S5000000x1_S5000000_n_0_0_1_wf
def gather_S1000000_S5000000x1_S5000000_n_0_n_n_0_1_1 : GatherDims S1000000 S5000000x1 S5000000 where
  offsetDims := []
  collapsedSliceDims := [0]
  operandBatchingDims := []
  startIndicesBatchingDims := []
  startIndexMap := [0]
  indexVectorDim := 1
  sliceSizes := ![1]
  wf := gather_S1000000_S5000000x1_S5000000_n_0_n_n_0_1_1_wf
def gather_S1000000x18_S5000000x1_S5000000x18_1_0_n_n_0_1_118 : GatherDims S1000000x18 S5000000x1 S5000000x18 where
  offsetDims := [1]
  collapsedSliceDims := [0]
  operandBatchingDims := []
  startIndicesBatchingDims := []
  startIndexMap := [0]
  indexVectorDim := 1
  sliceSizes := ![1, 18]
  wf := gather_S1000000x18_S5000000x1_S5000000x18_1_0_n_n_0_1_118_wf
def scatter_S1000000x18_S5000000x1_S5000000x18_1_0_0_1 : ScatterDims S1000000x18 S5000000x1 S5000000x18 where
  updateWindowDims := [1]
  insertedWindowDims := [0]
  scatterDimsToOperandDims := [0]
  indexVectorDim := 1
  wf := scatter_S1000000x18_S5000000x1_S5000000x18_1_0_0_1_wf
def dot_S10000x18_S18x16_S10000x16_1_0_0_1_n_n : DotDims S10000x18 S18x16 S10000x16 where
  lhsContracting := [1]
  rhsContracting := [0]
  lhsNonContracting := [0]
  rhsNonContracting := [1]
  lhsBatch := []
  rhsBatch := []
  wf := dot_S10000x18_S18x16_S10000x16_1_0_0_1_n_n_wf
def gather_S1000000x16_S5000000x1_S5000000x16_1_0_n_n_0_1_116 : GatherDims S1000000x16 S5000000x1 S5000000x16 where
  offsetDims := [1]
  collapsedSliceDims := [0]
  operandBatchingDims := []
  startIndicesBatchingDims := []
  startIndexMap := [0]
  indexVectorDim := 1
  sliceSizes := ![1, 16]
  wf := gather_S1000000x16_S5000000x1_S5000000x16_1_0_n_n_0_1_116_wf
def scatter_S1000000x16_S5000000x1_S5000000x16_1_0_0_1 : ScatterDims S1000000x16 S5000000x1 S5000000x16 where
  updateWindowDims := [1]
  insertedWindowDims := [0]
  scatterDimsToOperandDims := [0]
  indexVectorDim := 1
  wf := scatter_S1000000x16_S5000000x1_S5000000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf

abbrev win0_0 : Pipeline.Window sig grid0 :=
  Pipeline.Window.ofSpec (Memref.whole main_v44) S10000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S18x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v59) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x18 : Shape := ⟨2, ![1000000, 18]⟩
abbrev S18x16 : Shape := ⟨2, ![18, 16]⟩
abbrev S16 : Shape := ⟨1, ![16]⟩
abbrev S16x2 : Shape := ⟨2, ![16, 2]⟩
abbrev S2 : Shape := ⟨1, ![2]⟩
abbrev S2x4000000 : Shape := ⟨2, ![2, 4000000]⟩
abbrev S1000000 : Shape := ⟨1, ![1000000]⟩
abbrev S1x4000000 : Shape := ⟨2, ![1, 4000000]⟩
abbrev S4000000 : Shape := ⟨1, ![4000000]⟩
abbrev S5000000 : Shape := ⟨1, ![5000000]⟩
abbrev S_ : Shape := ⟨0, ![]⟩
abbrev S5000000x1 : Shape := ⟨2, ![5000000, 1]⟩
abbrev S1000000x16 : Shape := ⟨2, ![1000000, 16]⟩
abbrev S5000000x16 : Shape := ⟨2, ![5000000, 16]⟩
abbrev S1x16 : Shape := ⟨2, ![1, 16]⟩
abbrev S1000000x2 : Shape := ⟨2, ![1000000, 2]⟩
abbrev S5000000x2 : Shape := ⟨2, ![5000000, 2]⟩
abbrev S1x2 : Shape := ⟨2, ![1, 2]⟩
abbrev S1000000x1 : Shape := ⟨2, ![1000000, 1]⟩

abbrev nBuf : Space → Nat
  | .hbm => 107
  | .vmem => 0
  | .smem => 0
  | _ => 0

abbrev bufTy : (tb : Table) → Fin (tcTables nBuf tb) → BufTy
  | .hbm, ⟨0, _⟩ => ⟨S1000000x18, .f32⟩
  | .hbm, ⟨1, _⟩ => ⟨S18x16, .f32⟩
  | .hbm, ⟨2, _⟩ => ⟨S16, .f32⟩
  | .hbm, ⟨3, _⟩ => ⟨S16x2, .f32⟩
  | .hbm, ⟨4, _⟩ => ⟨S2, .f32⟩
  | .hbm, ⟨5, _⟩ => ⟨S2x4000000, .i32⟩
  | .hbm, ⟨6, _⟩ => ⟨S1000000, .i32⟩
  | .hbm, ⟨7, _⟩ => ⟨S1x4000000, .i32⟩
  | .hbm, ⟨8, _⟩ => ⟨S4000000, .i32⟩
  | .hbm, ⟨9, _⟩ => ⟨S5000000, .i32⟩
  | .hbm, ⟨10, _⟩ => ⟨S1x4000000, .i32⟩
  | .hbm, ⟨11, _⟩ => ⟨S4000000, .i32⟩
  | .hbm, ⟨12, _⟩ => ⟨S5000000, .i32⟩
  | .hbm, ⟨13, _⟩ => ⟨S_, .f32⟩
  | .hbm, ⟨14, _⟩ => ⟨S5000000, .f32⟩
  | .hbm, ⟨15, _⟩ => ⟨S_, .f32⟩
  | .hbm, ⟨16, _⟩ => ⟨S1000000, .f32⟩
  | .hbm, ⟨17, _⟩ => ⟨S5000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S_, .f32⟩
  | .hbm, ⟨23, _⟩ => ⟨S1000000, .f32⟩
  | .hbm, ⟨24, _⟩ => ⟨S1000000, .f32⟩
  | .hbm, ⟨25, _⟩ => ⟨S1000000, .f32⟩
  | .hbm, ⟨26, _⟩ => ⟨S_, .f32⟩
  | .hbm, ⟨27, _⟩ => ⟨S_, .f32⟩
  | .hbm, ⟨28, _⟩ => ⟨S1000000, .f32⟩
  | .hbm, ⟨29, _⟩ => ⟨S1000000, .f32⟩
  | .hbm, ⟨30, _⟩ => ⟨S_, .i32⟩
  | .hbm, ⟨31, _⟩ => ⟨S5000000, .i32⟩
  | .hbm, ⟨32, _⟩ => ⟨S5000000, .i1⟩
  | .hbm, ⟨33, _⟩ => ⟨S_, .i32⟩
  | .hbm, ⟨34, _⟩ => ⟨S5000000, .i32⟩
  | .hbm, ⟨35, _⟩ => ⟨S5000000, .i32⟩
  | .hbm, ⟨36, _⟩ => ⟨S5000000, .i32⟩
  | .hbm, ⟨37, _⟩ => ⟨S5000000x1, .i32⟩
  | .hbm, ⟨38, _⟩ => ⟨S5000000, .f32⟩
  | .hbm, ⟨39, _⟩ => ⟨S_, .i32⟩
  | .hbm, ⟨40, _⟩ => ⟨S5000000, .i32⟩
  | .hbm, ⟨41, _⟩ => ⟨S5000000, .i1⟩
  | .hbm, ⟨42, _⟩ => ⟨S_, .i32⟩
  | .hbm, ⟨43, _⟩ => ⟨S5000000, .i32⟩
  | .hbm, ⟨44, _⟩ => ⟨S5000000, .i32⟩
  | .hbm, ⟨45, _⟩ => ⟨S5000000, .i32⟩
  | .hbm, ⟨46, _⟩ => ⟨S5000000x1, .i32⟩
  | .hbm, ⟨47, _⟩ => ⟨S5000000, .f32⟩
  | .hbm, ⟨48, _⟩ => ⟨S5000000, .f32⟩
  | .hbm, ⟨49, _⟩ => ⟨S1000000x16, .f32⟩
  | .hbm, ⟨50, _⟩ => ⟨S_, .i32⟩
  | .hbm, ⟨51, _⟩ => ⟨S5000000, .i32⟩
  | .hbm, ⟨52, _⟩ => ⟨S5000000, .i1⟩
  | .hbm, ⟨53, _⟩ => ⟨S_, .i32⟩
  | .hbm, ⟨54, _⟩ => ⟨S5000000, .i32⟩
  | .hbm, ⟨55, _⟩ => ⟨S5000000, .i32⟩
  | .hbm, ⟨56, _⟩ => ⟨S5000000, .i32⟩
  | .hbm, ⟨57, _⟩ => ⟨S5000000x1, .i32⟩
  | .hbm, ⟨58, _⟩ => ⟨S5000000x16, .f32⟩
  | .hbm, ⟨59, _⟩ => ⟨S5000000x1, .f32⟩
  | .hbm, ⟨60, _⟩ => ⟨S5000000x16, .f32⟩
  | .hbm, ⟨61, _⟩ => ⟨S5000000x16, .f32⟩
  | .hbm, ⟨62, _⟩ => ⟨S_, .f32⟩
  | .hbm, ⟨63, _⟩ => ⟨S1000000x16, .f32⟩
  | .hbm, ⟨64, _⟩ => ⟨S5000000x1, .i32⟩
  | .hbm, ⟨65, _⟩ => ⟨S1000000x16, .f32⟩
  | .hbm, ⟨66, _⟩ => ⟨S1x16, .f32⟩
  | .hbm, ⟨67, _⟩ => ⟨S1000000x16, .f32⟩
  | .hbm, ⟨68, _⟩ => ⟨S1000000x16, .f32⟩
  | .hbm, ⟨69, _⟩ => ⟨S_, .f32⟩
  | .hbm, ⟨70, _⟩ => ⟨S1000000x16, .f32⟩
  | .hbm, ⟨71, _⟩ => ⟨S1000000x16, .f32⟩
  | .hbm, ⟨72, _⟩ => ⟨S1000000x2, .f32⟩
  | .hbm, ⟨73, _⟩ => ⟨S_, .i32⟩
  | .hbm, ⟨74, _⟩ => ⟨S5000000, .i32⟩
  | .hbm, ⟨75, _⟩ => ⟨S5000000, .i1⟩
  | .hbm, ⟨76, _⟩ => ⟨S_, .i32⟩
  | .hbm, ⟨77, _⟩ => ⟨S5000000, .i32⟩
  | .hbm, ⟨78, _⟩ => ⟨S5000000, .i32⟩
  | .hbm, ⟨79, _⟩ => ⟨S5000000, .i32⟩
  | .hbm, ⟨80, _⟩ => ⟨S5000000x1, .i32⟩
  | .hbm, ⟨81, _⟩ => ⟨S5000000x2, .f32⟩
  | .hbm, ⟨82, _⟩ => ⟨S5000000x1, .f32⟩
  | .hbm, ⟨83, _⟩ => ⟨S5000000x2, .f32⟩
  | .hbm, ⟨84, _⟩ => ⟨S5000000x2, .f32⟩
  | .hbm, ⟨85, _⟩ => ⟨S_, .f32⟩
  | .hbm, ⟨86, _⟩ => ⟨S1000000x2, .f32⟩
  | .hbm, ⟨87, _⟩ => ⟨S5000000x1, .i32⟩
  | .hbm, ⟨88, _⟩ => ⟨S1000000x2, .f32⟩
  | .hbm, ⟨89, _⟩ => ⟨S1x2, .f32⟩
  | .hbm, ⟨90, _⟩ => ⟨S1000000x2, .f32⟩
  | .hbm, ⟨91, _⟩ => ⟨S1000000x2, .f32⟩
  | .hbm, ⟨92, _⟩ => ⟨S_, .f32⟩
  | .hbm, ⟨93, _⟩ => ⟨S1000000, .f32⟩
  | .hbm, ⟨94, _⟩ => ⟨S_, .f32⟩
  | .hbm, ⟨95, _⟩ => ⟨S1000000, .f32⟩
  | .hbm, ⟨96, _⟩ => ⟨S1000000, .f32⟩
  | .hbm, ⟨97, _⟩ => ⟨S1000000x1, .f32⟩
  | .hbm, ⟨98, _⟩ => ⟨S1000000x2, .f32⟩
  | .hbm, ⟨99, _⟩ => ⟨S1000000x2, .f32⟩
  | .hbm, ⟨100, _⟩ => ⟨S1000000x2, .f32⟩
  | .hbm, ⟨101, _⟩ => ⟨S_, .f32⟩
  | .hbm, ⟨102, _⟩ => ⟨S1000000, .f32⟩
  | .hbm, ⟨103, _⟩ => ⟨S1000000x1, .f32⟩
  | .hbm, ⟨104, _⟩ => ⟨S1000000x1, .f32⟩
  | .hbm, ⟨105, _⟩ => ⟨S1000000x2, .f32⟩
  | .hbm, ⟨106, _⟩ => ⟨S1000000x2, .f32⟩
  | _, _ => ⟨S1000000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  concatenates_S4000000_S1000000_S5000000_d0 : Shape.Concatenates [S4000000, S1000000] S5000000 0
  slices_S2x4000000_S1x4000000_1_0 : S2x4000000.Slices ![1, 0] S1x4000000
  bcast_S_S5000000 : S_.BroadcastsInDim S5000000 (![] : Fin 0 → Fin S5000000.rank)
  bcast_S_S1000000 : S_.BroadcastsInDim S1000000 (![] : Fin 0 → Fin S1000000.rank)
  bcast_S5000000_S5000000x1_0 : S5000000.BroadcastsInDim S5000000x1 (![0] : Fin 1 → Fin S5000000x1.rank)
  bcast_S5000000x1_S5000000x16_0_1 : S5000000x1.BroadcastsInDim S5000000x16 (![0, 1] : Fin 2 → Fin S5000000x16.rank)
  bcast_S_S1000000x16 : S_.BroadcastsInDim S1000000x16 (![] : Fin 0 → Fin S1000000x16.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S5000000x1_S5000000x2_0_1 : S5000000x1.BroadcastsInDim S5000000x2 (![0, 1] : Fin 2 → Fin S5000000x2.rank)
  bcast_S_S1000000x2 : S_.BroadcastsInDim S1000000x2 (![] : Fin 0 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  reducesTo_S1000000x2_S1000000_d1 : S1000000x2.ReducesTo [1] S1000000
  h_S_ : 0 < S_.numel
  bcast_S1000000_S1000000x1_0 : S1000000.BroadcastsInDim S1000000x1 (![0] : Fin 1 → Fin S1000000x1.rank)
  bcast_S1000000x1_S1000000x2_0_1 : S1000000x1.BroadcastsInDim S1000000x2 (![0, 1] : Fin 2 → Fin S1000000x2.rank)
  scatter_S1000000_S5000000x1_S5000000_n_0_0_1_wf : ScatterDims.WF S1000000 S5000000x1 S5000000 [] [0] [0] 1
  gather_S1000000_S5000000x1_S5000000_n_0_n_n_0_1_1_wf : GatherDims.WF S1000000 S5000000x1 S5000000 [] [0] [] [0] [] 1 ![1]
  dot_S1000000x18_S18x16_S1000000x16_1_0_0_1_n_n_wf : DotDims.WF S1000000x18 S18x16 S1000000x16 [1] [0] [0] [1] [] []
  gather_S1000000x16_S5000000x1_S5000000x16_1_0_n_n_0_1_116_wf : GatherDims.WF S1000000x16 S5000000x1 S5000000x16 [1] [0] [] [0] [] 1 ![1, 16]
  scatter_S1000000x16_S5000000x1_S5000000x16_1_0_0_1_wf : ScatterDims.WF S1000000x16 S5000000x1 S5000000x16 [1] [0] [0] 1
  dot_S1000000x16_S16x2_S1000000x2_1_0_0_1_n_n_wf : DotDims.WF S1000000x16 S16x2 S1000000x2 [1] [0] [0] [1] [] []
  gather_S1000000x2_S5000000x1_S5000000x2_1_0_n_n_0_1_12_wf : GatherDims.WF S1000000x2 S5000000x1 S5000000x2 [1] [0] [] [0] [] 1 ![1, 2]
  scatter_S1000000x2_S5000000x1_S5000000x2_1_0_0_1_wf : ScatterDims.WF S1000000x2 S5000000x1 S5000000x2 [1] [0] [0] 1

variable [Facts₀]

def scatter_S1000000_S5000000x1_S5000000_n_0_0_1 : ScatterDims S1000000 S5000000x1 S5000000 where
  updateWindowDims := []
  insertedWindowDims := [0]
  scatterDimsToOperandDims := [0]
  indexVectorDim := 1
  wf := scatter_S1000000_S5000000x1_S5000000_n_0_0_1_wf
def gather_S1000000_S5000000x1_S5000000_n_0_n_n_0_1_1 : GatherDims S1000000 S5000000x1 S5000000 where
  offsetDims := []
  collapsedSliceDims := [0]
  operandBatchingDims := []
  startIndicesBatchingDims := []
  startIndexMap := [0]
  indexVectorDim := 1
  sliceSizes := ![1]
  wf := gather_S1000000_S5000000x1_S5000000_n_0_n_n_0_1_1_wf
def dot_S1000000x18_S18x16_S1000000x16_1_0_0_1_n_n : DotDims S1000000x18 S18x16 S1000000x16 where
  lhsContracting := [1]
  rhsContracting := [0]
  lhsNonContracting := [0]
  rhsNonContracting := [1]
  lhsBatch := []
  rhsBatch := []
  wf := dot_S1000000x18_S18x16_S1000000x16_1_0_0_1_n_n_wf
def gather_S1000000x16_S5000000x1_S5000000x16_1_0_n_n_0_1_116 : GatherDims S1000000x16 S5000000x1 S5000000x16 where
  offsetDims := [1]
  collapsedSliceDims := [0]
  operandBatchingDims := []
  startIndicesBatchingDims := []
  startIndexMap := [0]
  indexVectorDim := 1
  sliceSizes := ![1, 16]
  wf := gather_S1000000x16_S5000000x1_S5000000x16_1_0_n_n_0_1_116_wf
def scatter_S1000000x16_S5000000x1_S5000000x16_1_0_0_1 : ScatterDims S1000000x16 S5000000x1 S5000000x16 where
  updateWindowDims := [1]
  insertedWindowDims := [0]
  scatterDimsToOperandDims := [0]
  indexVectorDim := 1
  wf := scatter_S1000000x16_S5000000x1_S5000000x16_1_0_0_1_wf
def dot_S1000000x16_S16x2_S1000000x2_1_0_0_1_n_n : DotDims S1000000x16 S16x2 S1000000x2 where
  lhsContracting := [1]
  rhsContracting := [0]
  lhsNonContracting := [0]
  rhsNonContracting := [1]
  lhsBatch := []
  rhsBatch := []
  wf := dot_S1000000x16_S16x2_S1000000x2_1_0_0_1_n_n_wf
def gather_S1000000x2_S5000000x1_S5000000x2_1_0_n_n_0_1_12 : GatherDims S1000000x2 S5000000x1 S5000000x2 where
  offsetDims := [1]
  collapsedSliceDims := [0]
  operandBatchingDims := []
  startIndicesBatchingDims := []
  startIndexMap := [0]
  indexVectorDim := 1
  sliceSizes := ![1, 2]
  wf := gather_S1000000x2_S5000000x1_S5000000x2_1_0_n_n_0_1_12_wf
def scatter_S1000000x2_S5000000x1_S5000000x2_1_0_0_1 : ScatterDims S1000000x2 S5000000x1 S5000000x2 where
  updateWindowDims := [1]
  insertedWindowDims := [0]
  scatterDimsToOperandDims := [0]
  indexVectorDim := 1
  wf := scatter_S1000000x2_S5000000x1_S5000000x2_1_0_0_1_wf

class Facts : Prop extends Facts₀ where

variable [Facts]
-- ==== Proof.KerRun.lean ====
/-
  THE IDEALIZED KERNEL'S RUN, WITH ITS RESULT ARRAY NAMED.

  The program is two kernel regions among stretches of host operations. Its run is read segment by segment: the
  contents of every buffer at each segment boundary are a fold through the program (a host stretch applies its
  operations; a region leaves its arrays at what its write-backs leave and every other buffer as it was). Every weakly
  fair execution terminates, and in the final memory every buffer holds the last boundary's contents: in particular
  the result array holds them, and the six argument arrays hold what they were launched with.
-/
import proofs.«152186_j47614007443467_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates; the result array ends at the last boundary's contents and
    the arguments end as launched. -/
theorem run_last : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Whole

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefRun2.lean ====
/-
  THE REFERENCE'S RUN.

  The reference is a straight line of host operations, so every weakly fair execution of it terminates with each buffer
  at the fold of the operations' results over the launch contents. Read at the result buffer, that fold is the last of the
  program's stages — the log-softmax stage, a function of the six argument arrays as launched —, and read at an argument
  buffer it is the argument as launched, since no operation writes one. The read of the result goes through the line in
  one pass, each operation's result at its own buffer being its function of its operands' contents.
-/
import proofs.«152186_j47614007443467_2_alg».proof.Proof.RefRead
import proofs.«152186_j47614007443467_2_alg».proof.Proof.LibHostWalk
import Idealize.ShloMosaic.PureOps.Ideal

noncomputable section

namespace Cert.ReferenceIdeal.Whole

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.HostWalk

variable (m : (ℓ : Loc nD τ sig) → Buf (Elt Ideal) ℓ) (ρ : Dev nD → PrngReg)

set_option maxRecDepth 65536 in
set_option maxHeartbeats 8000000 in
/-- The result buffer after the line holds the last stage of the arguments as launched. -/
theorem result_read (c : Dev nD) :
    after (ops (F := Ideal)) (launchContents m c) (Proc.devRef .tc main_v67)
      = val_main_v67 (F := Ideal) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  walk_back [ops]
  rfl

set_option maxRecDepth 8192 in
set_option maxHeartbeats 4000000 in
/-- Every weakly fair execution of the reference terminates with the result at the last stage of the arguments and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67)
        = val_main_v67 (F := Ideal) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v67).trans (result_read m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Whole

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.FiniteInputs.lean ====
/-
  THE PRECONDITION SAYS EVERY FLOAT INPUT IS A REAL NUMBER.

  The precondition is the conjunction, over the five float arguments, of "every entry has absolute value below +∞",
  each taken entry by entry against the word of +∞ and reduced by `and` over the whole array. If the conjunction is 1
  then each conjunct is 1, and an array all of whose entries have absolute value below +∞ holds real numbers only:
  +∞ is its own absolute value and the absolute value of −∞ is +∞.
-/
import proofs.«152186_j47614007443467_2_alg».proof.Pre_finite_inputs
import proofs.«152186_j47614007443467_2_alg».proof.Proof.LibFiniteAll
import proofs.«152186_j47614007443467_2_alg».proof.Proof.LibRealSum
import Idealize.ShloMosaic.Lib.Affine
import Idealize.ShloMosaic.Lib.ValueIdx

noncomputable section

namespace Cert.Pre_finite_inputs.Whole

open Idealize.ShloMosaic Cert.Pre_finite_inputs Cert.RealSum

variable [Cert.Pre_finite_inputs.Facts]
open Cert.Pre_finite_inputs.Facts

/-- A rank-0 array has one index. -/
instance : Subsingleton S_.Idx := ⟨fun a b => funext fun d => d.elim0⟩

/-- If the precondition answers 1, every entry of every float argument is a real number. -/
theorem reals_of_pre (a0 : FVec Ideal S1000000x18 .f32) (a1 : FVec Ideal S18x16 .f32) (a2 : FVec Ideal S16 .f32)
    (a3 : FVec Ideal S16x2 .f32) (a4 : FVec Ideal S2 .f32) (a5 : IVec S2x4000000 32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  simp only [fn, fn_part1, andi, IntOp.andi_eq_one] at h0
  obtain ⟨⟨⟨⟨e0, e1⟩, e2⟩, e3⟩, e4⟩ := h0
  exact ⟨fun i => FiniteAll.all_real_of_reduce_and a0 _ _ _ _ _ _ e0 i,
    fun i => FiniteAll.all_real_of_reduce_and a1 _ _ _ _ _ _ e1 i,
    fun i => FiniteAll.all_real_of_reduce_and a2 _ _ _ _ _ _ e2 i,
    fun i => FiniteAll.all_real_of_reduce_and a3 _ _ _ _ _ _ e3 i,
    fun i => FiniteAll.all_real_of_reduce_and a4 _ _ _ _ _ _ e4 i⟩

end Cert.Pre_finite_inputs.Whole

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«152186_j47614007443467_2_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibRowBias.lean ====
/-
  A bias row read at an index: a vector of length `C`, viewed as a `1×C` matrix and repeated down `R`
  rows, holds the vector's entry `c` at every position `(p, c)`.
-/
import Idealize.ShloMosaic.Lib.Pipeline.Value
import Idealize.ShloMosaic.Lib.ValueLayout
import Idealize.ShloMosaic.Lib.ValueIdx

noncomputable section

namespace Cert.RowBias

open Idealize.ShloMosaic Idealize.ShloMosaic.ValueIdx

/-- Entry `(p, c)` of a length-`C` vector reshaped to `1×C` and broadcast to `R×C` is the vector's entry `c`
    (for `C ≠ 1`: an axis of extent one would be read at coordinate zero, which is the same entry, but the
    broadcast rule branches on it). -/
theorem bias_rows {α : Type} {R C : Nat} (hC : C ≠ 1) (v : (⟨1, ![C]⟩ : Shape).Idx → α)
    (hs : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ v hs) hb (ix2 p c) = v (ix1 c) := by
  rw [broadcastTo_apply _ hb (ix2 p c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  exact shapeCast_a_1a_apply v hs 0 c

end Cert.RowBias

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibRowLayer.lean ====
/-
  Two building blocks of a row-wise network layer, each in the vector unit's spelling and in the host's,
  read at one entry on the extended reals.

  * A dense layer: the product of an [R, K] array with a [K, N] weight matrix plus a length-N bias
    repeated down the rows holds at (p, c) the sum over q of l[p, q] · r[q, c], plus b[c].
  * A vector of length R laid out as a column and repeated across C lanes holds at (p, c) the vector's
    entry p (what a keep-dims row statistic is subtracted or divided by).
  Any extents (an extent that is not a unit axis is assumed different from 1, as the broadcast rules
  branch on it); depends on no program.
-/
import proofs.«152186_j47614007443467_2_alg».proof.Proof.LibPlainDot
import proofs.«152186_j47614007443467_2_alg».proof.Proof.LibRowBias
import proofs.«152186_j47614007443467_2_alg».proof.Proof.LibBroadcast
import proofs.«152186_j47614007443467_2_alg».proof.Proof.LibColumn

noncomputable section

open scoped BigOperators

namespace Cert.RowLayer

open Idealize.ShloMosaic Idealize.ShloMosaic.ValueIdx

/-- A dense layer in the vector unit's spelling: a matrix product into a zero accumulator plus the bias
    reshaped to a row and broadcast down the rows. -/
theorem kernel_dense {R K N : ℕ} {d : DotDims ⟨2, ![R, K]⟩ ⟨2, ![K, N]⟩ ⟨2, ![R, N]⟩} (hd : PlainDot.IsPlain d) (hN : N ≠ 1)
    (prec : Option ContractPrecision) {φ₁ φ₂ : FTy} (l : FVec Ideal ⟨2, ![R, K]⟩ φ₁) (r : FVec Ideal ⟨2, ![K, N]⟩ φ₂)
    (b : FVec Ideal ⟨1, ![N]⟩ .f32) (hs : (⟨1, ![N]⟩ : Shape).ShapeCasts ⟨2, ![1, N]⟩)
    (hb : (⟨2, ![1, N]⟩ : Shape).Broadcasts ⟨2, ![R, N]⟩) (p : Fin R) (c : Fin N) :
    addf (matmul d prec l r (constant ⟨2, ![R, N]⟩ .f32 0x00000000#32)) (broadcastTo ⟨2, ![R, N]⟩ (shapeCast ⟨2, ![1, N]⟩ b hs) hb) (ix2 p c)
      = (∑ q : Fin K, l (ix2 p q) * r (ix2 q c)) + b (ix1 c) :=
  congrArg₂ (· + ·) (PlainDot.matmul_zero_apply hd prec l r p c) (RowBias.bias_rows hN b hs hb p c)

/-- A dense layer in the host's spelling: a `dot_general` plus the bias broadcast to a row and then down the rows. -/
theorem host_dense {R K N : ℕ} {d : DotDims ⟨2, ![R, K]⟩ ⟨2, ![K, N]⟩ ⟨2, ![R, N]⟩} (hd : PlainDot.IsPlain d) (hN : N ≠ 1)
    (prec : Option ContractPrecision) (l : FVec Ideal ⟨2, ![R, K]⟩ .f32) (r : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![R, N]⟩ ![0, 1]) (p : Fin R) (c : Fin N) :
    addf (Host.dotGeneral d prec l r) (broadcastInDim ⟨2, ![R, N]⟩ ![0, 1] h2 (broadcastInDim ⟨2, ![1, N]⟩ ![1] h1 b)) (ix2 p c)
      = (∑ q : Fin K, l (ix2 p q) * r (ix2 q c)) + b (ix1 c) :=
  congrArg₂ (· + ·) (PlainDot.dotGeneral_apply hd prec l r p c) (Bcast.bias_rows_apply hN b h1 h2 p c)

/-- A vector as a column across the lanes, in the vector unit's spelling. -/
theorem kernel_across {α : Type} {R C : ℕ} (v : (⟨1, ![R]⟩ : Shape).Idx → α) (hs : (⟨1, ![R]⟩ : Shape).ShapeCasts ⟨2, ![R, 1]⟩)
    (hb : (⟨2, ![R, 1]⟩ : Shape).Broadcasts ⟨2, ![R, C]⟩) (p : Fin R) (c : Fin C) :
    broadcastTo ⟨2, ![R, C]⟩ (shapeCast ⟨2, ![R, 1]⟩ v hs) hb (ix2 p c) = v (ix1 p) :=
  (Column.broadcastTo_a1_ab_apply _ hb p c).trans (Column.shapeCast_a_a1_apply v hs p 0)

/-- A vector as a column across the lanes, in the host's spelling. -/
theorem host_across {α : Type} {R C : ℕ} (hR : R ≠ 1) (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (c : Fin C) :
    broadcastInDim ⟨2, ![R, C]⟩ ![0, 1] h2 (broadcastInDim ⟨2, ![R, 1]⟩ ![0] h1 v) (ix2 p c) = v (ix1 p) :=
  (Bcast.rows_of_col_apply hR _ h2 p c).trans (Bcast.col_apply hR v h1 p 0)

end Cert.RowLayer

end
-- ==== Proof.LibRowLogSoftmax.lean ====
/-
  Log-softmax along the rows of a matrix, in the vector unit's spelling and in the host's, read at one entry
  on the extended reals.

  Both lowerings of `log_softmax(x, axis = -1)` on an [R, C] array take the row's maximum as a fold of `max`
  from −∞ (the host once more against a −∞ splat, which changes nothing: a fold of `max` is at least the value
  it starts from), subtract it as a column repeated across the lanes, exponentiate, sum the row from zero, take
  the logarithm of that sum while it is still a column, and subtract it repeated across the lanes. At entry
  (p, c) each is the same function `logSoftmax` of row p:

      x[p, c] − M − log (∑ₖ exp (x[p, k] − M)),        M = max over k of x[p, k].

  The only law of the extended reals used is `b ≤ fold max b f`; otherwise the two spellings are the same
  operations in the same order. Any extents (the host's broadcast rule needs R ≠ 1); depends on no program.
-/
import proofs.«152186_j47614007443467_2_alg».proof.Proof.LibAxisFold
import proofs.«152186_j47614007443467_2_alg».proof.Proof.LibHostRowFold
import proofs.«152186_j47614007443467_2_alg».proof.Proof.LibRowLayer

noncomputable section

open scoped BigOperators

namespace Cert.RowLogSoftmax

open Idealize.ShloMosaic Idealize.ShloMosaic.ValueIdx

/-- −∞, as the f32 word both programs print. -/
abbrev ninf : EReal := Ideal.ofBits .f32 0xFF800000#32

/-- A row's maximum: the fold of `max` from −∞. -/
def top {n : ℕ} (l : Fin n → EReal) : EReal := (Finset.univ : Finset (Fin n)).fold max ninf l
/-- An entry shifted by the row's maximum. -/
def shifted {n : ℕ} (l : Fin n → EReal) (c : Fin n) : EReal := l c - top l
/-- The row's log-softmax: the shifted entry minus the logarithm of the sum of the shifted exponentials. -/
def logSoftmax {n : ℕ} (l : Fin n → EReal) (c : Fin n) : EReal :=
  shifted l c - Ideal.log (∑ k : Fin n, Ideal.exp (shifted l k))

/-- A fold of `max` is at least the value it starts from, so one more `max` against that value changes nothing. -/
theorem max_fold {n : ℕ} (b : EReal) (l : Fin n → EReal) :
    max b ((Finset.univ : Finset (Fin n)).fold max b l) = (Finset.univ : Finset (Fin n)).fold max b l :=
  max_eq_right ((Finset.le_fold_max b).mpr (Or.inl le_rfl))

section Kernel

variable {R C : ℕ} (lg : FVec Ideal ⟨2, ![R, C]⟩ .f32)
  (hr : (⟨2, ![R, C]⟩ : Shape).Reduces [1] ⟨1, ![R]⟩) (hφ : FKind.Formats .f32)
  (hmax : (0xFF800000#32 : BitVec (FTy.f32).bits) = FKind.maximumf.neutral .f32 hφ)
  (hadd : (0x00000000#32 : BitVec (FTy.f32).bits) = FKind.add.neutral .f32 hφ)
  (hs : (⟨1, ![R]⟩ : Shape).ShapeCasts ⟨2, ![R, 1]⟩) (hb : (⟨2, ![R, 1]⟩ : Shape).Broadcasts ⟨2, ![R, C]⟩)

/-- The entries shifted by their row's maximum, as the vector unit computes them. -/
abbrev kernelShift : FVec Ideal ⟨2, ![R, C]⟩ .f32 :=
  subf lg (broadcastTo ⟨2, ![R, C]⟩ (shapeCast ⟨2, ![R, 1]⟩
    (multiReduction .maximumf [1] ⟨1, ![R]⟩ lg 0xFF800000#32 hr hφ hmax) hs) hb)

/-- The vector unit's shifted entry at (p, c): the entry minus the maximum of row p. -/
theorem kernel_shift (p : Fin R) (c : Fin C) :
    kernelShift lg hr hφ hmax hs hb (ix2 p c) = shifted (fun k => lg (ix2 p k)) c :=
  congrArg (fun z : EReal => lg (ix2 p c) - z)
    ((RowLayer.kernel_across _ hs hb p c).trans (AxisFold.row_max lg 0xFF800000#32 hr hφ hmax p))

/-- The vector unit's log-softmax, at entry (p, c): the logarithm is taken of the row sums laid out as a
    column, and the column is then repeated across the lanes. -/
theorem kernel_logSoftmax (p : Fin R) (c : Fin C) :
    subf (kernelShift lg hr hφ hmax hs hb)
      (broadcastTo ⟨2, ![R, C]⟩ (log (shapeCast ⟨2, ![R, 1]⟩
        (multiReduction .add [1] ⟨1, ![R]⟩ (exp (kernelShift lg hr hφ hmax hs hb)) 0x00000000#32 hr hφ hadd) hs)) hb) (ix2 p c)
      = logSoftmax (fun k => lg (ix2 p k)) c :=
  congrArg₂ (fun a b : EReal => a - b) (kernel_shift lg hr hφ hmax hs hb p c)
    ((Column.broadcastTo_a1_ab_apply _ hb p c).trans
      (congrArg Ideal.log
        ((Column.shapeCast_a_a1_apply _ hs p 0).trans
          ((AxisFold.row_sum (exp (kernelShift lg hr hφ hmax hs hb)) hr hφ hadd p).trans
            (Finset.sum_congr rfl fun k _ => congrArg Ideal.exp (kernel_shift lg hr hφ hmax hs hb p k))))))

end Kernel

section Host

variable {R C : ℕ} (lg : FVec Ideal ⟨2, ![R, C]⟩ .f32)
  (h' : (⟨2, ![R, C]⟩ : Shape).ReducesTo [1] ⟨1, ![R]⟩) (hu : 0 < (⟨0, ![]⟩ : Shape).numel)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, C]⟩ ![0, 1])

/-- The entries shifted by their row's maximum, as the host computes them (the maximum once more against a
    −∞ splat). -/
abbrev hostShift : FVec Ideal ⟨2, ![R, C]⟩ .f32 :=
  subf lg (broadcastInDim ⟨2, ![R, C]⟩ ![0, 1] h2 (broadcastInDim ⟨2, ![R, 1]⟩ ![0] h1
    (maximumf (broadcastInDim ⟨1, ![R]⟩ ![] h0 (constant (F := Ideal) ⟨0, ![]⟩ .f32 0xFF800000#32))
      (Host.reduce FloatOps.maximumf lg (constant (F := Ideal) ⟨0, ![]⟩ .f32 0xFF800000#32) h' hu))))

/-- The host's shifted entry at (p, c): the entry minus the maximum of row p; the extra `max` against −∞
    is absorbed because the fold already starts from −∞. -/
theorem host_shift (hR : R ≠ 1) (p : Fin R) (c : Fin C) :
    hostShift lg h' hu h0 h1 h2 (ix2 p c) = shifted (fun k => lg (ix2 p k)) c :=
  congrArg (fun z : EReal => lg (ix2 p c) - z)
    ((RowLayer.host_across hR _ h1 h2 p c).trans
      ((congrArg₂ max (Bcast.scalar_apply _ h0 (ix1 p)) (HostRowFold.row_max lg _ h' hu p)).trans
        (max_fold ninf fun k => lg (ix2 p k))))

/-- The host's log-softmax, at entry (p, c): the logarithm is taken of the row sums laid out as a column,
    between the two broadcasts. -/
theorem host_logSoftmax (hR : R ≠ 1) (p : Fin R) (c : Fin C) :
    subf (hostShift lg h' hu h0 h1 h2)
      (broadcastInDim ⟨2, ![R, C]⟩ ![0, 1] h2 (Host.log (broadcastInDim ⟨2, ![R, 1]⟩ ![0] h1
        (Host.reduceAdd (Host.exp (hostShift lg h' hu h0 h1 h2)) (constant (F := Ideal) ⟨0, ![]⟩ .f32 0x00000000#32) h' hu)))) (ix2 p c)
      = logSoftmax (fun k => lg (ix2 p k)) c :=
  congrArg₂ (fun a b : EReal => a - b) (host_shift lg h' hu h0 h1 h2 hR p c)
    ((Bcast.rows_of_col_apply hR _ h2 p c).trans
      (congrArg Ideal.log
        ((Bcast.col_apply hR _ h1 p 0).trans
          ((HostRowFold.row_sum_zero (Host.exp (hostShift lg h' hu h0 h1 h2)) h' hu p).trans
            (Finset.sum_congr rfl fun k _ => congrArg Ideal.exp (host_shift lg h' hu h0 h1 h2 hR p k))))))

end Host

end Cert.RowLogSoftmax

end
-- ==== Proof.KerFirst.lean ====
/-
  THE FIRST KERNEL REGION'S RESULT ARRAY AS ONE FUNCTION.

  The first kernel walks the 1,000,000 rows of the aggregated features in 100 blocks of 10,000 rows. At each block it
  multiplies the block by the whole 18×16 weight matrix into a zero accumulator, adds the bias row and takes the maximum
  with zero: the block of the hidden layer  max(a · w + b, 0)  on those rows. An entry of the hidden layer depends on
  one row of `a` only, so block `t` of the result is block `t` of the hidden layer of the WHOLE arrays, and since the 100
  blocks tile the array, the array the region leaves is the hidden layer of the arrays it was entered with.
-/
import proofs.«152186_j47614007443467_2_alg».proof.Proof.Gen.KernelIdeal.Frame
import proofs.«152186_j47614007443467_2_alg».proof.Proof.LibDenseLayer
import proofs.«152186_j47614007443467_2_alg».proof.Proof.LibRowLogSoftmax
import Idealize.ShloMosaic.Lib.Pipeline.Value
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the contents of the TensorCore's buffers when a region is entered
variable (V : (c : Dev nD) → (b : Ref sig .tc) → Buf (Elt Ideal) ((c : Thread nD τ).loc b))

/-- The blocks' rectangles start at the origin of their staging buffers. -/
theorem origin2 : (![0, 0] : Fin 2 → Nat) = fun _ => 0 := funext fun a => by fin_cases a <;> rfl

/-- The first kernel's product is a plain one: rows by columns. -/
theorem plain_first : PlainDot.IsPlain dot_S10000x18_S18x16_S10000x16_1_0_0_1_n_n := ⟨rfl, rfl, rfl, rfl, rfl, rfl⟩

/-- What the first kernel stores is the hidden layer of what it loads (a change of float format is the identity on the
    extended reals, and so is a reshape to the same shape). -/
theorem payload_first (x0 : FVec Ideal S10000x18 .f32) (x1 : FVec Ideal S18x16 .f32) (x2 : FVec Ideal S1x16 .f32) :
    k0_pay1 (F := Ideal) x0 x1 x2 = DenseLayer.hidden x0 x1 x2 := by
  unfold k0_pay1
  dsimp only
  refine (DenseLayer.hidden_eq plain_first none _ _ _ broadcasts_S1x16_S10000x16).trans ?_
  rw [shapeCast_self, shapeCast_self]
  rfl

/-- The hidden layer of the arrays the first region is entered with. -/
def hiddenArray (c : Dev nD) : S1000000x16.Idx → EReal :=
  DenseLayer.hidden (M := 1000000) (K := 18) (N := 16) (V c main_v44) (V c main_arg1) (V c main_v45)

/-- Where the windows' blocks sit at each grid point, decided over the 100 points: the feature window and the result
    window move down the rows together, the weight matrix and the bias row stay. -/
theorem index_first : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of the hidden layer of the whole arrays. -/
theorem flushed_first (c : Dev nD) (t : Fin cfg0.N) :
    (dat0 V c).flushed 3 t = ((cfg0.win 3).blk t).view.read (Elt Ideal) (hiddenArray V c) := by
  show (cfg0.win 3).cut (grid0.coords t) ((dat0 V c).after 3 t) = _
  rw [after0_3]
  unfold out0_3
  rw [View.canon_unit_zero origin2]
  simp only [View.ld_unit_zero (S := S10000x18) origin2, View.ld_unit_zero (S := S18x16) origin2,
    View.ld_unit_zero (S := S1x16) origin2]
  rw [payload_first]
  obtain ⟨e00, e01, e10, e11, e20, e21, e30, e31⟩ := index_first t
  funext y
  obtain ⟨p, q, rfl⟩ : ∃ (p : Fin 10000) (q : Fin 16), y = ix2 p q := ⟨y 0, y 1, eq_ix2 y⟩
  show DenseLayer.hidden (iblk0 V c 0 t) (iblk0 V c 1 t) (iblk0 V c 2 t) (ix2 p q)
    = hiddenArray V c (((cfg0.win 3).blk t).view.emb (ix2 p q))
  unfold hiddenArray
  rw [eq_ix2 (((cfg0.win 3).blk t).view.emb (ix2 p q))]
  refine DenseLayer.hidden_congr _ _ _ _ _ _ p _ q _ (fun k => ?_) (fun k => ?_) ?_
  · show V c main_v44 (((cfg0.win 0).blk t).view.emb (ix2 p k)) = _
    refine congrArg (V c main_v44) (funext fun a => Fin.ext ?_)
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 18 + 1 * k.val = k.val
      omega
  · show V c main_arg1 (((cfg0.win 1).blk t).view.emb (ix2 k q)) = _
    refine congrArg (V c main_arg1) (funext fun a => Fin.ext ?_)
    match a with
    | ⟨0, _⟩ =>
      show win0_1.index t (0 : Fin 2) * 18 + 1 * k.val = k.val
      omega
    | ⟨1, _⟩ =>
      show win0_1.index t (1 : Fin 2) * 16 + 1 * q.val = win0_3.index t (1 : Fin 2) * 16 + 1 * q.val
      omega
  · show V c main_v45 (((cfg0.win 2).blk t).view.emb (ix2 (0 : Fin 1) q)) = _
    refine congrArg (V c main_v45) (funext fun a => Fin.ext ?_)
    match a with
    | ⟨0, _⟩ =>
      show win0_2.index t (0 : Fin 2) * 1 + 1 * 0 = 0
      omega
    | ⟨1, _⟩ =>
      show win0_2.index t (1 : Fin 2) * 16 + 1 * q.val = win0_3.index t (1 : Fin 2) * 16 + 1 * q.val
      omega

/-- An index of the result array is in point `t`'s block iff each coordinate is in the block's range on its axis. -/
theorem mem_block_first (t : Fin cfg0.N) (i : S1000000x16.Idx) :
    i ∈ ((cfg0.win 3).blk t).view.set ↔ ∀ a : Fin 2, win0_3.index t a * S10000x16.size a ≤ (i a).val
      ∧ (i a).val < win0_3.index t a * S10000x16.size a + S10000x16.size a := by
  show i ∈ ((View.whole main_v46).slice (win0_3.rect t)).set ↔ _
  rw [View.set_slice_whole, Rect.mem_set_unit]
  exact Iff.rfl

/-- Every row lies in the block of the point numbered by the row divided by 10,000. -/
theorem cover_first (i : S1000000x16.Idx) :
    ∃ t : Fin cfg0.N, (cfg0.win 3).flush t = true ∧ i ∈ ((cfg0.win 3).blk t).view.set := by
  have hi0 : (i 0).val < 1000000 := (i 0).isLt
  have hi1 : (i 1).val < 16 := (i 1).isLt
  have hN : cfg0.N = 100 := N_0
  refine ⟨⟨(i 0).val / 10000, by rw [hN]; omega⟩, flush0_3 _, ?_⟩
  rw [mem_block_first]
  obtain ⟨-, -, -, -, -, -, e30, e31⟩ := index_first ⟨(i 0).val / 10000, by rw [hN]; omega⟩
  intro a
  match a with
  | ⟨0, _⟩ =>
    show win0_3.index _ (0 : Fin 2) * 10000 ≤ (i 0).val ∧ (i 0).val < win0_3.index _ (0 : Fin 2) * 10000 + 10000
    rw [e30]
    show (i 0).val / 10000 * 10000 ≤ (i 0).val ∧ (i 0).val < (i 0).val / 10000 * 10000 + 10000
    omega
  | ⟨1, _⟩ =>
    show win0_3.index _ (1 : Fin 2) * 16 ≤ (i 1).val ∧ (i 1).val < win0_3.index _ (1 : Fin 2) * 16 + 16
    rw [e31]
    omega

/-- THE ARRAY THE FIRST REGION LEAVES: the hidden layer of the arrays it was entered with. -/
theorem final_first (c : Dev nD) : (dat0 V c).arrAt 3 cfg0.N = hiddenArray V c :=
  (dat0 V c).arrAt_eq_of_cover 3 (hiddenArray V c) (fun t _ => flushed_first V c t) (cover_first)

end Cert.KernelIdeal.Whole

end
-- ==== Proof.KerSecond.lean ====
/-
  THE SECOND KERNEL REGION'S RESULT ARRAY AS ONE FUNCTION.

  The second kernel walks the 1,000,000 rows of the aggregated hidden features in 100 blocks of 10,000 rows. At each block
  it forms the logits  a · w + b  of the block's rows (a product with the whole 16×2 weight matrix into a zero
  accumulator plus the bias row) and takes the log-softmax of each row: the entry minus the row's maximum, minus the
  logarithm of the sum of the exponentials of the row's shifted entries. A row of the result depends on the same row
  of `a` only, so block `t` of the result is block `t` of one function of the WHOLE arrays, and since the 100 blocks tile
  the array, the array the region leaves is that function of the arrays it was entered with.
-/
import proofs.«152186_j47614007443467_2_alg».proof.Proof.Gen.KernelIdeal.Frame
import proofs.«152186_j47614007443467_2_alg».proof.Proof.LibDenseLayer
import proofs.«152186_j47614007443467_2_alg».proof.Proof.LibRowLogSoftmax
import Idealize.ShloMosaic.Lib.Pipeline.Value
import Idealize.ShloMosaic.Lib.ValueIdx

set_option maxRecDepth 16384

noncomputable section

open scoped BigOperators

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- the contents of the TensorCore's buffers when a region is entered
variable (V : (c : Dev nD) → (b : Ref sig .tc) → Buf (Elt Ideal) ((c : Thread nD τ).loc b))

/-- The blocks' rectangles start at the origin of their staging buffers. -/
theorem origin2' : (![0, 0] : Fin 2 → Nat) = fun _ => 0 := funext fun a => by fin_cases a <;> rfl

/-- The second kernel's product is a plain one: rows by columns. -/
theorem plain_second : PlainDot.IsPlain dot_S10000x16_S16x2_S10000x2_1_0_0_1_n_n := ⟨rfl, rfl, rfl, rfl, rfl, rfl⟩

/-- What the second kernel stores, at row `p` and class `c`: the log-softmax of row `p` of the logits of what it loads. -/
theorem payload_second (x0 : FVec Ideal S10000x16 .f32) (x1 : FVec Ideal S16x2 .f32) (x2 : FVec Ideal S1x2 .f32)
    (p : Fin 10000) (c : Fin 2) :
    k1_pay1 (F := Ideal) x0 x1 x2 (ix2 p c)
      = RowLogSoftmax.logSoftmax (fun k => DenseLayer.affine x0 x1 x2 (ix2 p k)) c := by
  unfold k1_pay1
  dsimp only
  refine (RowLogSoftmax.kernel_logSoftmax _ reduces_S10000x2_S10000 (.inl rfl) rfl rfl shapeCasts_S10000_S10000x1
    broadcasts_S10000x1_S10000x2 p c).trans ?_
  rw [DenseLayer.affine_eq plain_second none _ _ _ broadcasts_S1x2_S10000x2, shapeCast_self, shapeCast_self]
  rfl

/-- The row-wise log-softmax of the logits of the arrays the second region is entered with. -/
def classArray (c : Dev nD) : S1000000x2.Idx → EReal := fun i =>
  RowLogSoftmax.logSoftmax (fun k : Fin 2 => DenseLayer.affine (M := 1000000) (K := 16) (N := 2)
    (V c main_v59) (V c main_arg3) (V c main_v60) (ix2 (i 0) k)) (i 1)

/-- Where the windows' blocks sit at each grid point, decided over the 100 points. -/
theorem index_second : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of the class array of the whole arrays. -/
theorem flushed_second (c : Dev nD) (t : Fin cfg1.N) :
    (dat1 V c).flushed 3 t = ((cfg1.win 3).blk t).view.read (Elt Ideal) (classArray V c) := by
  show (cfg1.win 3).cut (grid1.coords t) ((dat1 V c).after 3 t) = _
  rw [after1_3]
  unfold out1_3
  rw [View.canon_unit_zero origin2']
  simp only [View.ld_unit_zero (S := S10000x16) origin2', View.ld_unit_zero (S := S16x2) origin2',
    View.ld_unit_zero (S := S1x2) origin2']
  obtain ⟨e00, e01, e10, e11, e20, e21, e30, e31⟩ := index_second t
  funext y
  obtain ⟨p, q, rfl⟩ : ∃ (p : Fin 10000) (q : Fin 2), y = ix2 p q := ⟨y 0, y 1, eq_ix2 y⟩
  show k1_pay1 (F := Ideal) (iblk1 V c 0 t) (iblk1 V c 1 t) (iblk1 V c 2 t) (ix2 p q)
    = classArray V c (((cfg1.win 3).blk t).view.emb (ix2 p q))
  rw [payload_second]
  unfold classArray
  have hq : (((cfg1.win 3).blk t).view.emb (ix2 p q)) 1 = q := Fin.ext (by
    show win1_3.index t (1 : Fin 2) * 2 + 1 * q.val = q.val
    omega)
  rw [hq]
  refine congrArg (fun l => RowLogSoftmax.logSoftmax l q) (funext fun k => ?_)
  refine DenseLayer.affine_congr _ _ _ _ _ _ p _ k k (fun j => ?_) (fun j => ?_) ?_
  · show V c main_v59 (((cfg1.win 0).blk t).view.emb (ix2 p j)) = _
    refine congrArg (V c main_v59) (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 16 + 1 * j.val = j.val
      omega
  · show V c main_arg3 (((cfg1.win 1).blk t).view.emb (ix2 j k)) = _
    refine congrArg (V c main_arg3) (funext fun a => Fin.ext ?_)
    match a with
    | ⟨0, _⟩ =>
      show win1_1.index t (0 : Fin 2) * 16 + 1 * j.val = j.val
      omega
    | ⟨1, _⟩ =>
      show win1_1.index t (1 : Fin 2) * 2 + 1 * k.val = k.val
      omega
  · show V c main_v60 (((cfg1.win 2).blk t).view.emb (ix2 (0 : Fin 1) k)) = _
    refine congrArg (V c main_v60) (funext fun a => Fin.ext ?_)
    match a with
    | ⟨0, _⟩ =>
      show win1_2.index t (0 : Fin 2) * 1 + 1 * 0 = 0
      omega
    | ⟨1, _⟩ =>
      show win1_2.index t (1 : Fin 2) * 2 + 1 * k.val = k.val
      omega

/-- An index of the result array is in point `t`'s block iff each coordinate is in the block's range on its axis. -/
theorem mem_block_second (t : Fin cfg1.N) (i : S1000000x2.Idx) :
    i ∈ ((cfg1.win 3).blk t).view.set ↔ ∀ a : Fin 2, win1_3.index t a * S10000x2.size a ≤ (i a).val
      ∧ (i a).val < win1_3.index t a * S10000x2.size a + S10000x2.size a := by
  show i ∈ ((View.whole main_v61).slice (win1_3.rect t)).set ↔ _
  rw [View.set_slice_whole, Rect.mem_set_unit]
  exact Iff.rfl

/-- Every row lies in the block of the point numbered by the row divided by 10,000. -/
theorem cover_second (i : S1000000x2.Idx) :
    ∃ t : Fin cfg1.N, (cfg1.win 3).flush t = true ∧ i ∈ ((cfg1.win 3).blk t).view.set := by
  have hi0 : (i 0).val < 1000000 := (i 0).isLt
  have hi1 : (i 1).val < 2 := (i 1).isLt
  have hN : cfg1.N = 100 := N_1
  refine ⟨⟨(i 0).val / 10000, by rw [hN]; omega⟩, flush1_3 _, ?_⟩
  rw [mem_block_second]
  obtain ⟨-, -, -, -, -, -, e30, e31⟩ := index_second ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e30]
    show (i 0).val / 10000 * 10000 ≤ (i 0).val ∧ (i 0).val < (i 0).val / 10000 * 10000 + 10000
    omega
  | ⟨1, _⟩ =>
    show win1_3.index _ (1 : Fin 2) * 2 ≤ (i 1).val ∧ (i 1).val < win1_3.index _ (1 : Fin 2) * 2 + 2
    rw [e31]
    omega

/-- THE ARRAY THE SECOND REGION LEAVES: the row-wise log-softmax of the logits of the arrays it was entered with. -/
theorem final_second (c : Dev nD) : (dat1 V c).arrAt 3 cfg1.N = classArray V c :=
  (dat1 V c).arrAt_eq_of_cover 3 (classArray V c) (fun t _ => flushed_second V c t) (cover_second)

end Cert.KernelIdeal.Whole

end
-- ==== Proof.KerHost.lean ====
/-
  THE HOST OPERATIONS AROUND THE TWO KERNEL REGIONS, READ BACK.

  Before the first region the host builds, from the edge list, the gather indices (the sources, negative ones wrapped),
  the scatter indices (the targets) and the edge weights, and aggregates the node features over the edges: the array
  the first region is entered with is that aggregate, beside the first weight matrix and the first bias as a row.
  Between the regions the host aggregates the first region's result over the same edges with the same weights: the
  array the second region is entered with is that aggregate, beside the second weight matrix and the second bias as
  a row. Each statement below says so for one buffer, the operands named by the contents of their own buffers at the
  same boundary; no operation writes an argument array, and the first region writes only its result array.
-/
import proofs.«152186_j47614007443467_2_alg».proof.Proof.Gen.KernelIdeal.Frame
import proofs.«152186_j47614007443467_2_alg».proof.Proof.LibHostWalk
import Idealize.ShloMosaic.PureOps.Ideal

set_option maxRecDepth 16384

noncomputable section

namespace Cert.KernelIdeal.Whole

open Idealize.ShloMosaic Idealize.ShloMosaic.TcCoe Idealize.ShloMosaic.StableHlo
open Idealize.SL Idealize.SL.Sem
open Cert.KernelIdeal Cert.KernelIdeal.Gen Cert.HostWalk

variable (m : (ℓ : Loc nD τ sig) → Buf (Elt Ideal) ℓ) (ρ : Dev nD → PrngReg)

/-! ## At the first region's entry -/

/-- The array the first region multiplies: the node features aggregated over the edges. -/
theorem entry_first_features (c : Dev nD) :
    V3 m ρ c main_v44
      = Host.scatterAdd scatter_S1000000x18_S5000000x1_S5000000x18_1_0_0_1
          (broadcastInDim S1000000x18 ![] bcast_S_S1000000x18 (constant (F := Ideal) S_ .f32 0x00000000#32))
          (V3 m ρ c main_v43)
          (mulf (Host.gather gather_S1000000x18_S5000000x1_S5000000x18_1_0_n_n_0_1_118 (V3 m ρ c main_arg0) (V3 m ρ c main_v37))
            (broadcastInDim S5000000x18 ![0, 1] bcast_S5000000x1_S5000000x18_0_1
              (broadcastInDim S5000000x1 ![0] bcast_S5000000_S5000000x1_0 (V3 m ρ c main_v31)))) := by
  dsimp only [V3, W3, W2, W1, W0]
  walk_back [hostOps0, hostOps0_1, hostOps0_2]

/-- The bias row of the first region: the first bias reshaped. -/
theorem entry_first_bias (c : Dev nD) :
    V3 m ρ c main_v45 = shapeCast S1x16 (V3 m ρ c main_arg2) shapeCasts_S16_S1x16 := by
  dsimp only [V3, W3, W2, W1, W0]
  walk_back [hostOps0, hostOps0_1, hostOps0_2]
  rfl

/-- An argument array at the first region's entry is as launched. -/
theorem entry_first_arg (c : Dev nD) (b : Ref sig .tc) (hb : b = main_arg0 ∨ b = main_arg1 ∨ b = main_arg2 ∨ b = main_arg3 ∨ b = main_arg4 ∨ b = main_arg5) :
    V3 m ρ c b = m ((c : Thread nD τ).loc b) := by
  rcases hb with rfl | rfl | rfl | rfl | rfl | rfl <;>
  · dsimp only [V3, W3, W2, W1, W0]
    walk_back [hostOps0, hostOps0_1, hostOps0_2]

/-! ## At the second region's entry -/

/-- The array the second region multiplies: the first region's result aggregated over the same edges. -/
theorem entry_second_features (c : Dev nD) :
    V5 m ρ c main_v59
      = Host.scatterAdd scatter_S1000000x16_S5000000x1_S5000000x16_1_0_0_1
          (broadcastInDim S1000000x16 ![] bcast_S_S1000000x16 (constant (F := Ideal) S_ .f32 0x00000000#32))
          (broadcastInDim S5000000x1 ![0] bcast_S5000000_S5000000x1_0 (V4 m ρ c main_v6))
          (mulf (Host.gather gather_S1000000x16_S5000000x1_S5000000x16_1_0_n_n_0_1_116 (V4 m ρ c main_v46)
              (broadcastInDim S5000000x1 ![0] bcast_S5000000_S5000000x1_0
                (select (cmpi .slt (V4 m ρ c main_v3) (broadcastInDim S5000000 ![] bcast_S_S5000000 (constantI S_ 32 0#32)))
                  (addi (V4 m ρ c main_v3) (broadcastInDim S5000000 ![] bcast_S_S5000000 (constantI S_ 32 1000000#32)))
                  (V4 m ρ c main_v3))))
            (broadcastInDim S5000000x16 ![0, 1] bcast_S5000000x1_S5000000x16_0_1
              (broadcastInDim S5000000x1 ![0] bcast_S5000000_S5000000x1_0 (V4 m ρ c main_v31)))) := by
  dsimp only [V5, W5, V4]
  walk_back [hostOps1]

/-- The bias row of the second region: the second bias reshaped. -/
theorem entry_second_bias (c : Dev nD) :
    V5 m ρ c main_v60 = shapeCast S1x2 (V4 m ρ c main_arg4) shapeCasts_S2_S1x2 := by
  dsimp only [V5, W5, V4]
  walk_back [hostOps1]
  rfl

/-- The second weight matrix at the second region's entry is what it was at the first region's exit. -/
theorem entry_second_weights (c : Dev nD) : V5 m ρ c main_arg3 = V4 m ρ c main_arg3 := by
  dsimp only [V5, W5, V4]
  walk_back [hostOps1]

/-! ## Across the first region -/

/-- A buffer that is none of the first region's four arrays is at its exit what it was at its entry. -/
theorem across_first (c : Dev nD) (b : Ref sig .tc) (hb : ∀ w, Pipeline.arrRef spec0 w ≠ b) :
    V4 m ρ c b = V3 m ρ c b := W4_of_ne m ρ c b hb

/-- The first region's result array at its exit is what its write-backs leave. -/
theorem exit_first_result (c : Dev nD) : V4 m ρ c main_v46 = (dat0 (V3 m ρ) c).arrAt 3 cfg0.N :=
  W4_arr m ρ c 3

/-- The gather indices of the second aggregation are those of the first (the same wrapped sources)… -/
theorem sources_again (c : Dev nD) :
    broadcastInDim S5000000x1 ![0] bcast_S5000000_S5000000x1_0
        (select (cmpi .slt (V3 m ρ c main_v3) (broadcastInDim S5000000 ![] bcast_S_S5000000 (constantI S_ 32 0#32)))
          (addi (V3 m ρ c main_v3) (broadcastInDim S5000000 ![] bcast_S_S5000000 (constantI S_ 32 1000000#32)))
          (V3 m ρ c main_v3))
      = V3 m ρ c main_v37 := by
  dsimp only [V3, W3, W2, W1, W0]
  walk_back [hostOps0, hostOps0_1, hostOps0_2]

/-- … and so are its scatter indices (the same targets). -/
theorem targets_again (c : Dev nD) :
    broadcastInDim S5000000x1 ![0] bcast_S5000000_S5000000x1_0 (V3 m ρ c main_v6) = V3 m ρ c main_v43 := by
  dsimp only [V3, W3, W2, W1, W0]
  walk_back [hostOps0, hostOps0_1, hostOps0_2]

end Cert.KernelIdeal.Whole

end
-- ==== Proof.LibRowGatherScatter.lean ====
/-
  ROW GATHER AND ROW / VECTOR SCATTER-ADD, READ AT ONE ENTRY (general lemmas: any extents, any element type).

  A table `x : [N, C]` is gathered at `E` start indices `S : [E, 1]` (what `x[src]` lowers to): result row `e` is the
  table's row at `S[e, 0]`, the start index read as a signed integer and clamped into `[0, N − 1]` (`srcRow`):
      gather x S (e, k) = x (srcRow S e, k)                                            (`gather_row_apply`).
  `E` update rows `u : [E, C]` are scatter-added into `x : [N, C]` at scatter indices `D : [E, 1]` (what a segment sum
  lowers to): update row `e` lands on row `n` exactly when `D[e, 0]`, read as a signed integer and NOT clamped, is `n`
  (`Lands D e n`); an update whose index is negative or at least `N` lands nowhere. In exact (extended-real)
  arithmetic the result's entry is the operand's entry plus the sum, over the edges that land there, of their updates:
      scatterAdd x D u (n, k) = x (n, k) + ∑ e with Lands D e n, u (e, k)              (`scatterAdd_row_apply`),
  and the same for `E` scalars scatter-added into a vector `x : [N]` (a degree count):
      scatterAdd x D u (n)    = x (n)    + ∑ e with Lands D e n, u (e)                 (`scatterAdd_vec_apply`).

  The dimension numbers enter through the predicates `IsRowGather`, `IsRowScatter`, `IsVecScatter`, which say what
  the lists of a record are; at a literal record every field equation is `rfl`. Each lemma is first proved for the
  literal record (`rowGatherDims`, `rowScatterDims`, `vecScatterDims`: those lists with an arbitrary proof of their
  conditions) by computing the start, window and offset coordinates axis by axis; the scatter lemmas go through the
  characterisation of the landing index (`resultIdx?_rowDims`: update `(e, c)` lands on `(n, k)` iff `Lands D e n` and
  `c = k`; `resultIdx?_vecDims`: update `e` lands on `n` iff `Lands D e n`) and then re-index the sum over update
  multi-indices by the edge number.
-/
import Idealize.ShloMosaic.PureOps.Ideal
import Idealize.ShloMosaic.Lib.ValueIdx

noncomputable section

open scoped BigOperators

namespace Cert.RowGS

open Idealize.ShloMosaic Idealize.ShloMosaic.ValueIdx

variable {N E C w : Nat}

/-- The row an edge reads: its start index read as a signed integer and clamped into `[0, N − 1]`. -/
def srcRow (hN : 0 < N) (S : IVec ⟨2, ![E, 1]⟩ w) (e : Fin E) : Fin N :=
  ⟨min (S (ix2 e (0 : Fin 1))).toInt.toNat (N - 1), by omega⟩

/-- Edge `e`'s update lands on row `n`: its scatter index read as a signed integer is `n`. -/
abbrev Lands (D : IVec ⟨2, ![E, 1]⟩ w) (e : Fin E) (n : Fin N) : Prop :=
  (D (ix2 e (0 : Fin 1))).toInt = (n.val : Int)

/-- An axis of a rank-2 shape is the first or the second. -/
theorem fin2_cases (a : Fin 2) : a = 0 ∨ a = 1 := by
  match a with
  | ⟨0, _⟩ => exact Or.inl rfl
  | ⟨1, _⟩ => exact Or.inr rfl

/-! ## Gather of whole rows -/

/-- `g` gathers whole rows of an `[N, C]` table at `[E, 1]` start indices: the row axis is collapsed and is the one
    the start index addresses, the column axis is the one offset axis with the full slice `C`, nothing is batched. -/
structure IsRowGather (g : GatherDims ⟨2, ![N, C]⟩ ⟨2, ![E, 1]⟩ ⟨2, ![E, C]⟩) : Prop where
  od : g.offsetDims = [1]
  cs : g.collapsedSliceDims = [0]
  ob : g.operandBatchingDims = []
  sb : g.startIndicesBatchingDims = []
  sim : g.startIndexMap = [0]
  ivd : g.indexVectorDim = 1
  ss : g.sliceSizes = ![1, C]

/-- The row-gather dimension numbers as a literal record (any proof `wf` of their conditions). -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The gather at the literal record, read at `(e, k)`. On the row axis the operand coordinate is the clamped start
    (no batching coordinate; the axis is collapsed, so no offset); on the column axis the start is `0` (the start
    index does not address it) and the offset coordinate is `k`. -/
theorem gather_rowDims_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (S : IVec ⟨2, ![E, 1]⟩ w) (e : Fin E) (k : Fin C) :
    Host.gather (rowGatherDims N E C wf) x S (ix2 e k) = x (ix2 (srcRow hN S e) k) := by
  unfold Host.gather
  congr 1
  funext a
  refine Fin.ext ?_
  show (rowGatherDims N E C wf).start (ix2 e k) S a + (rowGatherDims N E C wf).batchCoord (ix2 e k) a
    + (rowGatherDims N E C wf).offCoord (ix2 e k) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    -- the start index of result row `e` is read at `[e, 0]`
    have hsi : (rowGatherDims N E C wf).siIdx (ix2 e k)
        ⟨List.idxOf (0 : Fin 2) (rowGatherDims N E C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowGatherDims N E C wf).startIndexMap from
      show (1 : Fin 2) ∉ ([0] : List (Fin 2)) from by decide)]
    unfold GatherDims.offCoord
    rw [dif_pos ((GatherDims.mem_sKept _ _).mpr
      ⟨show (1 : Fin 2) ∉ ([0] : List (Fin 2)) from by decide, List.not_mem_nil⟩)]
    simp only [Nat.add_zero, Nat.zero_add]
    rfl

/-- THE ROW GATHER READ AT `(e, k)`: the table at row `srcRow S e` (the start index `S[e, 0]`, read signed and clamped
    into `[0, N − 1]`), column `k`. -/
theorem gather_row_apply {α : Type} {g : GatherDims ⟨2, ![N, C]⟩ ⟨2, ![E, 1]⟩ ⟨2, ![E, C]⟩} (hg : IsRowGather g)
    (hN : 0 < N) (x : (⟨2, ![N, C]⟩ : Shape).Idx → α) (S : IVec ⟨2, ![E, 1]⟩ w) (e : Fin E) (k : Fin C) :
    Host.gather g x S (ix2 e k) = x (ix2 (srcRow hN S e) k) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_rowDims_apply hN wf x S e k

/-! ## Scatter-add of rows into an `[N, C]` array -/

/-- `d` scatters `[E, C]` update rows into an `[N, C]` operand at `[E, 1]` scatter indices: the row axis is the
    inserted one and the one the scatter index addresses, the column axis is the one window axis. -/
structure IsRowScatter (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  ivd : d.indexVectorDim = 1

/-- The row-scatter dimension numbers as a literal record (any proof `wf` of their conditions). -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An operand axis carries a window coordinate exactly when it is not an inserted axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section RowScatter
variable (wf : ScatterDims.WF ⟨2, ![N, C]⟩ ⟨2, ![E, 1]⟩ ⟨2, ![E, C]⟩ [1] [0] [0] 1)
  (j : (⟨2, ![E, C]⟩ : Shape).Idx) (D : IVec ⟨2, ![E, 1]⟩ w)

/-- On the row axis the window of update `(e, c)` starts at the scatter index `D[e, 0]`, read signed … -/
theorem rowScatter_start0 :
    (rowScatterDims N E C wf).start j D (0 : Fin 2) = (D (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j
      ⟨List.idxOf (0 : Fin 2) (rowScatterDims N E C wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … on the column axis, which the scatter index does not address, at `0`. -/
theorem rowScatter_start1 : (rowScatterDims N E C wf).start j D (1 : Fin 2) = 0 := by
  unfold ScatterDims.start
  rw [dif_neg (show (1 : Fin 2) ∉ (rowScatterDims N E C wf).scatterDimsToOperandDims from
    show (1 : Fin 2) ∉ ([0] : List (Fin 2)) from by decide)]

/-- The row axis is inserted: no window coordinate there … -/
theorem rowScatter_window0 : (rowScatterDims N E C wf).window j (0 : Fin 2) = 0 := by
  unfold ScatterDims.window
  rw [dif_neg (fun h => (scatter_mem_sKept _ _).mp h (List.mem_singleton.mpr rfl))]

/-- … and on the column axis the window coordinate of update `(e, c)` is `c`. -/
theorem rowScatter_window1 : (rowScatterDims N E C wf).window j (1 : Fin 2) = (j 1).val := by
  unfold ScatterDims.window
  rw [dif_pos ((scatter_mem_sKept _ _).mpr (show (1 : Fin 2) ∉ ([0] : List (Fin 2)) from by decide))]
  rfl

/-- WHERE AN UPDATE LANDS: update `(e, c)` lands on `(n, k)` iff its scatter index, read signed, is `n` and `c = k`.
    (The landing index is start plus window coordinate on each axis, kept only when in range: on the row axis that
    is `D[e, 0] + 0`, in range iff it is some `n < N`; on the column axis `0 + c`, always in range.) -/
theorem resultIdx?_rowDims (i : (⟨2, ![N, C]⟩ : Shape).Idx) :
    (rowScatterDims N E C wf).resultIdx? j D = some i ↔ Lands D (j 0) (i 0) ∧ (j 1).val = (i 1).val := by
  have hs0 := rowScatter_start0 wf j D
  have hs1 := rowScatter_start1 wf j D
  have hw0 := rowScatter_window0 wf j
  have hw1 := rowScatter_window1 wf j
  have hi0 : (i 0).val < N := idx2_lt0 i
  have hi1 : (i 1).val < C := idx2_lt1 i
  have hj1 : (j 1).val < C := idx2_lt1 j
  unfold ScatterDims.resultIdx?
  constructor
  · intro h
    split at h
    · rename_i hc
      have hf := Option.some.inj h
      have e0 : ((rowScatterDims N E C wf).start j D (0 : Fin 2)
          + ((rowScatterDims N E C wf).window j (0 : Fin 2) : Int)).toNat = (i 0).val :=
        congrArg Fin.val (congrFun hf 0)
      have e1 : ((rowScatterDims N E C wf).start j D (1 : Fin 2)
          + ((rowScatterDims N E C wf).window j (1 : Fin 2) : Int)).toNat = (i 1).val :=
        congrArg Fin.val (congrFun hf 1)
      have c0 := (hc 0).1
      have c1 := (hc 1).1
      rw [hs0, hw0] at e0 c0
      rw [hs1, hw1] at e1 c1
      refine ⟨?_, ?_⟩
      · show (D (ix2 (j 0) (0 : Fin 1))).toInt = ((i 0).val : Int)
        omega
      · omega
    · cases h
  · rintro ⟨hl, h1⟩
    have hl' : (D (ix2 (j 0) (0 : Fin 1))).toInt = ((i 0).val : Int) := hl
    have hc : ∀ a, 0 ≤ (rowScatterDims N E C wf).start j D a + ((rowScatterDims N E C wf).window j a : Int) ∧
        (rowScatterDims N E C wf).start j D a + ((rowScatterDims N E C wf).window j a : Int)
          < ((⟨2, ![N, C]⟩ : Shape).size a : Int) := by
      intro a
      rcases fin2_cases a with rfl | rfl
      · rw [hs0, hw0, hl']
        show 0 ≤ ((i 0).val : Int) + ((0 : Nat) : Int) ∧ ((i 0).val : Int) + ((0 : Nat) : Int) < (N : Int)
        omega
      · rw [hs1, hw1]
        show (0 : Int) ≤ 0 + ((j 1).val : Int) ∧ (0 : Int) + ((j 1).val : Int) < (C : Int)
        omega
    rw [dif_pos hc]
    congr 1
    funext a
    refine Fin.ext ?_
    rcases fin2_cases a with rfl | rfl
    · show ((rowScatterDims N E C wf).start j D (0 : Fin 2)
          + ((rowScatterDims N E C wf).window j (0 : Fin 2) : Int)).toNat = (i 0).val
      rw [hs0, hw0, hl']
      omega
    · show ((rowScatterDims N E C wf).start j D (1 : Fin 2)
          + ((rowScatterDims N E C wf).window j (1 : Fin 2) : Int)).toNat = (i 1).val
      rw [hs1, hw1]
      omega

end RowScatter

section RowScatterSum
variable (wf : ScatterDims.WF ⟨2, ![N, C]⟩ ⟨2, ![E, 1]⟩ ⟨2, ![E, C]⟩ [1] [0] [0] 1)

/-- The row scatter-add at the literal record, read at `(n, k)`: the updates landing on `(n, k)` are the `(e, k)`
    with `Lands D e n`, and `(e, c) ↦ e`, `e ↦ (e, k)` are inverse bijections between the two index sets. -/
theorem scatterAdd_rowDims_apply {φ : FTy} (x : FVec Ideal ⟨2, ![N, C]⟩ φ) (D : IVec ⟨2, ![E, 1]⟩ w)
    (u : FVec Ideal ⟨2, ![E, C]⟩ φ) (n : Fin N) (k : Fin C) :
    Host.scatterAdd (rowScatterDims N E C wf) x D u (ix2 n k)
      = x (ix2 n k) + ∑ e ∈ Finset.univ.filter (fun e : Fin E => Lands D e n), u (ix2 e k) := by
  show Ideal.hostScatterAdd (rowScatterDims N E C wf) x D u (ix2 n k) = _
  unfold Ideal.hostScatterAdd
  congr 1
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    have h := (resultIdx?_rowDims wf (ix2 a b) D (ix2 n k)).mp (Finset.mem_filter.mp hj).2
    exact Finset.mem_filter.mpr ⟨Finset.mem_univ _, h.1⟩
  · intro e he
    have h : Lands D e n := (Finset.mem_filter.mp he).2
    exact Finset.mem_filter.mpr ⟨Finset.mem_univ _, (resultIdx?_rowDims wf (ix2 e k) D (ix2 n k)).mpr ⟨h, rfl⟩⟩
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl
  · intro e _
    rfl
  · intro j hj
    obtain ⟨a, b, rfl⟩ : ∃ a b, j = ix2 a b := ⟨_, _, eq_ix2 j⟩
    have h := (resultIdx?_rowDims wf (ix2 a b) D (ix2 n k)).mp (Finset.mem_filter.mp hj).2
    obtain rfl : b = k := Fin.ext h.2
    rfl

end RowScatterSum

/-- THE ROW SCATTER-ADD READ AT `(n, k)`: the operand's entry plus the sum, over the edges `e` whose scatter index
    (read signed, not clamped) is `n`, of the update entries `u (e, k)`. -/
theorem scatterAdd_row_apply {φ : FTy} {d : ScatterDims ⟨2, ![N, C]⟩ ⟨2, ![E, 1]⟩ ⟨2, ![E, C]⟩} (hd : IsRowScatter d)
    (x : FVec Ideal ⟨2, ![N, C]⟩ φ) (D : IVec ⟨2, ![E, 1]⟩ w) (u : FVec Ideal ⟨2, ![E, C]⟩ φ) (n : Fin N) (k : Fin C) :
    Host.scatterAdd d x D u (ix2 n k)
      = x (ix2 n k) + ∑ e ∈ Finset.univ.filter (fun e : Fin E => Lands D e n), u (ix2 e k) := by
  obtain ⟨uw, iw, sd, ivd, wf⟩ := d
  obtain ⟨h1, h2, h3, h4⟩ := hd
  dsimp only at h1 h2 h3 h4
  subst h1 h2 h3 h4
  exact scatterAdd_rowDims_apply wf x D u n k

/-! ## Scatter-add of scalars into an `[N]` vector -/

/-- `d` scatters `[E]` update scalars into an `[N]` operand at `[E, 1]` scatter indices: the operand's one axis is
    inserted and addressed by the scatter index; the updates have no window axis. -/
structure IsVecScatter (d : ScatterDims ⟨1, ![N]⟩ ⟨2, ![E, 1]⟩ ⟨1, ![E]⟩) : Prop where
  uw : d.updateWindowDims = []
  iw : d.insertedWindowDims = [0]
  sd : d.scatterDimsToOperandDims = [0]
  ivd : d.indexVectorDim = 1

/-- The vector-scatter dimension numbers as a literal record (any proof `wf` of their conditions). -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable (wf : ScatterDims.WF ⟨1, ![N]⟩ ⟨2, ![E, 1]⟩ ⟨1, ![E]⟩ [] [0] [0] 1)
  (j : (⟨1, ![E]⟩ : Shape).Idx) (D : IVec ⟨2, ![E, 1]⟩ w)

/-- The window of update `e` starts at the scatter index `D[e, 0]`, read signed … -/
theorem vecScatter_start0 :
    (vecScatterDims N E wf).start j D (0 : Fin 1) = (D (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and the operand's axis is inserted: no window coordinate. -/
theorem vecScatter_window0 : (vecScatterDims N E wf).window j (0 : Fin 1) = 0 := by
  unfold ScatterDims.window
  rw [dif_neg (fun h => (scatter_mem_sKept _ _).mp h (List.mem_singleton.mpr rfl))]

/-- WHERE AN UPDATE LANDS: update `e` lands on `n` iff its scatter index, read signed, is `n`. -/
theorem resultIdx?_vecDims (i : (⟨1, ![N]⟩ : Shape).Idx) :
    (vecScatterDims N E wf).resultIdx? j D = some i ↔ Lands D (j 0) (i 0) := by
  have hs0 := vecScatter_start0 wf j D
  have hw0 := vecScatter_window0 wf j
  have hi0 : (i 0).val < N := (i 0).isLt
  unfold ScatterDims.resultIdx?
  constructor
  · intro h
    split at h
    · rename_i hc
      have hf := Option.some.inj h
      have e0 : ((vecScatterDims N E wf).start j D (0 : Fin 1)
          + ((vecScatterDims N E wf).window j (0 : Fin 1) : Int)).toNat = (i 0).val :=
        congrArg Fin.val (congrFun hf 0)
      have c0 := (hc 0).1
      rw [hs0, hw0] at e0 c0
      show (D (ix2 (j 0) (0 : Fin 1))).toInt = ((i 0).val : Int)
      omega
    · cases h
  · intro hl
    have hl' : (D (ix2 (j 0) (0 : Fin 1))).toInt = ((i 0).val : Int) := hl
    have hc : ∀ a, 0 ≤ (vecScatterDims N E wf).start j D a + ((vecScatterDims N E wf).window j a : Int) ∧
        (vecScatterDims N E wf).start j D a + ((vecScatterDims N E wf).window j a : Int)
          < ((⟨1, ![N]⟩ : Shape).size a : Int) := by
      intro a
      obtain rfl : a = (0 : Fin 1) := Subsingleton.elim _ _
      rw [hs0, hw0, hl']
      show 0 ≤ ((i 0).val : Int) + ((0 : Nat) : Int) ∧ ((i 0).val : Int) + ((0 : Nat) : Int) < (N : Int)
      omega
    rw [dif_pos hc]
    congr 1
    funext a
    refine Fin.ext ?_
    obtain rfl : a = (0 : Fin 1) := Subsingleton.elim _ _
    show ((vecScatterDims N E wf).start j D (0 : Fin 1)
        + ((vecScatterDims N E wf).window j (0 : Fin 1) : Int)).toNat = (i 0).val
    rw [hs0, hw0, hl']
    omega

end VecScatter

section VecScatterSum
variable (wf : ScatterDims.WF ⟨1, ![N]⟩ ⟨2, ![E, 1]⟩ ⟨1, ![E]⟩ [] [0] [0] 1)

/-- The vector scatter-add at the literal record, read at `n`: an update index is its one coordinate, the edge
    number, and it lands on `n` iff `Lands D e n`. -/
theorem scatterAdd_vecDims_apply {φ : FTy} (x : FVec Ideal ⟨1, ![N]⟩ φ) (D : IVec ⟨2, ![E, 1]⟩ w)
    (u : FVec Ideal ⟨1, ![E]⟩ φ) (n : Fin N) :
    Host.scatterAdd (vecScatterDims N E wf) x D u (ix1 n)
      = x (ix1 n) + ∑ e ∈ Finset.univ.filter (fun e : Fin E => Lands D e n), u (ix1 e) := by
  show Ideal.hostScatterAdd (vecScatterDims N E wf) x D u (ix1 n) = _
  unfold Ideal.hostScatterAdd
  congr 1
  refine Finset.sum_nbij' (fun j => (j 0 : Fin E)) (fun e => ix1 e) ?_ ?_ ?_ ?_ ?_
  · intro j hj
    obtain ⟨a, rfl⟩ : ∃ a, j = ix1 a := ⟨_, eq_ix1 j⟩
    have h := (resultIdx?_vecDims wf (ix1 a) D (ix1 n)).mp (Finset.mem_filter.mp hj).2
    exact Finset.mem_filter.mpr ⟨Finset.mem_univ _, h⟩
  · intro e he
    have h : Lands D e n := (Finset.mem_filter.mp he).2
    exact Finset.mem_filter.mpr ⟨Finset.mem_univ _, (resultIdx?_vecDims wf (ix1 e) D (ix1 n)).mpr h⟩
  · intro j _
    obtain ⟨a, rfl⟩ : ∃ a, j = ix1 a := ⟨_, eq_ix1 j⟩
    rfl
  · intro e _
    rfl
  · intro j _
    obtain ⟨a, rfl⟩ : ∃ a, j = ix1 a := ⟨_, eq_ix1 j⟩
    rfl

end VecScatterSum

/-- THE VECTOR SCATTER-ADD READ AT `n`: the operand's entry plus the sum, over the edges `e` whose scatter index
    (read signed, not clamped) is `n`, of the update scalars `u (e)`. -/
theorem scatterAdd_vec_apply {φ : FTy} {d : ScatterDims ⟨1, ![N]⟩ ⟨2, ![E, 1]⟩ ⟨1, ![E]⟩} (hd : IsVecScatter d)
    (x : FVec Ideal ⟨1, ![N]⟩ φ) (D : IVec ⟨2, ![E, 1]⟩ w) (u : FVec Ideal ⟨1, ![E]⟩ φ) (n : Fin N) :
    Host.scatterAdd d x D u (ix1 n)
      = x (ix1 n) + ∑ e ∈ Finset.univ.filter (fun e : Fin E => Lands D e n), u (ix1 e) := by
  obtain ⟨uw, iw, sd, ivd, wf⟩ := d
  obtain ⟨h1, h2, h3, h4⟩ := hd
  dsimp only at h1 h2 h3 h4
  subst h1 h2 h3 h4
  exact scatterAdd_vecDims_apply wf x D u n

end Cert.RowGS

end
-- ==== Proof.LibAggregate.lean ====
/-
  THE NEIGHBOURHOOD AGGREGATION, READ AT ONE ENTRY.

  Both programs aggregate a feature table `feat : [N, C]` over a list of `E` weighted edges in the same three host
  operations: the rows of the table are gathered at the edges' source indices `S : [E, 1]`, each gathered row is
  multiplied by its edge's weight `q : [E]` (laid out as a column and repeated across the `C` lanes), and the weighted
  rows are scatter-added into a zero array at the edges' target indices `D : [E, 1]`. On the extended reals the entry
  `(n, k)` of the result is

      0 + ∑ over the edges e whose target index is n, feat (source row of e, k) · q e,

  the source index clamped into the table, an edge whose target index is out of range landing nowhere.
-/
import proofs.«152186_j47614007443467_2_alg».proof.Proof.LibRowGatherScatter
import proofs.«152186_j47614007443467_2_alg».proof.Proof.LibBroadcast
import Idealize.ShloMosaic.PureOps.Ideal.Laws

noncomputable section

open scoped BigOperators

namespace Cert.Aggregate

open Idealize.ShloMosaic Idealize.ShloMosaic.ValueIdx Cert.RowGS

variable {N E C : Nat}

/-- The edges whose target index is the node `n`. -/
abbrev into (D : IVec ⟨2, ![E, 1]⟩ 32) (n : Fin N) : Finset (Fin E) :=
  Finset.univ.filter (fun e : Fin E => Lands D e n)

/-- Gather at the sources, weight, scatter-add into zeros at the targets: entry `(n, k)` is the weighted sum, over the
    edges into `n`, of the table's entries at the edges' source rows. -/
theorem aggregate_apply
    {g : GatherDims ⟨2, ![N, C]⟩ ⟨2, ![E, 1]⟩ ⟨2, ![E, C]⟩} (hg : IsRowGather g)
    {d : ScatterDims ⟨2, ![N, C]⟩ ⟨2, ![E, 1]⟩ ⟨2, ![E, C]⟩} (hd : IsRowScatter d)
    (hN : 0 < N) (hE : E ≠ 1)
    (feat : FVec Ideal ⟨2, ![N, C]⟩ .f32) (S D : IVec ⟨2, ![E, 1]⟩ 32) (q : FVec Ideal ⟨1, ![E]⟩ .f32)
    (h0 : (⟨0, ![]⟩ : Shape).BroadcastsInDim ⟨2, ![N, C]⟩ ![])
    (h1 : (⟨1, ![E]⟩ : Shape).BroadcastsInDim ⟨2, ![E, 1]⟩ ![0])
    (h2 : (⟨2, ![E, 1]⟩ : Shape).BroadcastsInDim ⟨2, ![E, C]⟩ ![0, 1]) (n : Fin N) (k : Fin C) :
    Host.scatterAdd d (broadcastInDim ⟨2, ![N, C]⟩ ![] h0 (constant (F := Ideal) ⟨0, ![]⟩ .f32 0x00000000#32)) D
        (mulf (Host.gather g feat S)
          (broadcastInDim ⟨2, ![E, C]⟩ ![0, 1] h2 (broadcastInDim ⟨2, ![E, 1]⟩ ![0] h1 q))) (ix2 n k)
      = 0 + ∑ e ∈ into D n, feat (ix2 (srcRow hN S e) k) * q (ix1 e) := by
  rw [scatterAdd_row_apply hd]
  refine congrArg₂ (· + ·) ?_ (Finset.sum_congr rfl fun e _ => ?_)
  · rw [Bcast.scalar_apply]
    exact Ideal.ofBits_zero_f32
  · show Host.gather g feat S (ix2 e k)
        * broadcastInDim ⟨2, ![E, C]⟩ ![0, 1] h2 (broadcastInDim ⟨2, ![E, 1]⟩ ![0] h1 q) (ix2 e k) = _
    rw [gather_row_apply hg hN, Bcast.rows_of_col_apply hE, Bcast.col_apply hE]

end Cert.Aggregate

end
-- ==== Proof.KerValue.lean ====
/-
  THE IDEALIZED KERNEL'S RESULT, READ AT ONE ENTRY.

  The kernel aggregates first and multiplies after. With `src e` the source row of edge `e`, `q e` its weight and the sums
  over the edges into a node, all as the program's own host operations compute them from the edge list:

      aggregated features (n, i) = 0 + ∑ e, x (src e, i) · q e
      hidden              (n, j) = max ((∑ i, aggregated features (n, i) · W1 (i, j)) + b1 j) 0        (first region)
      aggregated hidden   (n, j) = 0 + ∑ e, hidden (src e, j) · q e
      logit               (n, c) = (∑ j, aggregated hidden (n, j) · W2 (j, c)) + b2 c
      result              (p, c) = log-softmax of row p of the logits, at c.                           (second region)

  Each line is one of the reads proved before: the host stretches (the aggregation read at one entry), the regions' result
  arrays (each one function of the arrays the region is entered with), and the fold of buffer contents between them.
-/
import proofs.«152186_j47614007443467_2_alg».proof.Proof.KerFirst
import proofs.«152186_j47614007443467_2_alg».proof.Proof.KerSecond
import proofs.«152186_j47614007443467_2_alg».proof.Proof.KerHost
import proofs.«152186_j47614007443467_2_alg».proof.Proof.LibAggregate

set_option maxRecDepth 16384

noncomputable section

open scoped BigOperators

namespace Cert.KernelIdeal.Whole

open Idealize.ShloMosaic Idealize.ShloMosaic.TcCoe Idealize.ShloMosaic.ValueIdx
open Idealize.SL Idealize.SL.Sem
open Cert.KernelIdeal Cert.KernelIdeal.Gen Cert.RowGS Cert.Aggregate

variable (m : (ℓ : Loc nD τ sig) → Buf (Elt Ideal) ℓ) (ρ : Dev nD → PrngReg)

/-- There is at least one node. -/
theorem nodes_pos : 0 < 1000000 := by decide

/-- The argument arrays as launched, and the two aggregated arrays the regions multiply, as arrays of extended reals. -/
abbrev xArr (c : Dev nD) : FVec Ideal ⟨2, ![1000000, 18]⟩ .f32 := m ((c : Thread nD τ).loc main_arg0)
abbrev w1Arr (c : Dev nD) : FVec Ideal ⟨2, ![18, 16]⟩ .f32 := m ((c : Thread nD τ).loc main_arg1)
abbrev b1Arr (c : Dev nD) : FVec Ideal ⟨1, ![16]⟩ .f32 := m ((c : Thread nD τ).loc main_arg2)
abbrev w2Arr (c : Dev nD) : FVec Ideal ⟨2, ![16, 2]⟩ .f32 := m ((c : Thread nD τ).loc main_arg3)
abbrev b2Arr (c : Dev nD) : FVec Ideal ⟨1, ![2]⟩ .f32 := m ((c : Thread nD τ).loc main_arg4)
abbrev agg1 (c : Dev nD) : FVec Ideal ⟨2, ![1000000, 18]⟩ .f32 := V3 m ρ c main_v44
abbrev agg2 (c : Dev nD) : FVec Ideal ⟨2, ![1000000, 16]⟩ .f32 := V5 m ρ c main_v59

-- the edges' gather indices, scatter indices and weights, as the host computed them before the first region: named, so
-- that the formulas below can be stated over the same arrays under whatever name a reader has for them
variable {S D : IVec ⟨2, ![5000000, 1]⟩ 32} {Q : FVec Ideal ⟨1, ![5000000]⟩ .f32}

theorem gatherK18 : IsRowGather (N := 1000000) (E := 5000000) (C := 18) gather_S1000000x18_S5000000x1_S5000000x18_1_0_n_n_0_1_118 :=
  ⟨rfl, rfl, rfl, rfl, rfl, rfl, rfl⟩
theorem gatherK16 : IsRowGather (N := 1000000) (E := 5000000) (C := 16) gather_S1000000x16_S5000000x1_S5000000x16_1_0_n_n_0_1_116 :=
  ⟨rfl, rfl, rfl, rfl, rfl, rfl, rfl⟩
theorem scatterK18 : IsRowScatter (N := 1000000) (E := 5000000) (C := 18) scatter_S1000000x18_S5000000x1_S5000000x18_1_0_0_1 :=
  ⟨rfl, rfl, rfl, rfl⟩
theorem scatterK16 : IsRowScatter (N := 1000000) (E := 5000000) (C := 16) scatter_S1000000x16_S5000000x1_S5000000x16_1_0_0_1 :=
  ⟨rfl, rfl, rfl, rfl⟩

/-- The array the first region multiplies, at node `n` and feature `i`. -/
theorem features_apply (c : Dev nD) (hS : V3 m ρ c main_v37 = S) (hD : V3 m ρ c main_v43 = D) (hQ : V3 m ρ c main_v31 = Q)
    (n : Fin 1000000) (i : Fin 18) :
    agg1 m ρ c (ix2 n i)
      = 0 + ∑ e ∈ into D n, xArr m c (ix2 (srcRow nodes_pos S e) i) * Q (ix1 e) := by
  subst hS hD hQ
  dsimp only [agg1, xArr]
  rw [entry_first_features, entry_first_arg m ρ c main_arg0 (Or.inl rfl)]
  exact aggregate_apply gatherK18 scatterK18 nodes_pos (by decide) _ _ _ _ _ _ _ n i

/-- The first region's result, at node `n` and hidden unit `j`. -/
theorem hidden_apply (c : Dev nD) (n : Fin 1000000) (j : Fin 16) :
    hiddenArray (V3 m ρ) c (ix2 n j)
      = max ((∑ i : Fin 18, agg1 m ρ c (ix2 n i) * w1Arr m c (ix2 i j)) + b1Arr m c (ix1 j))
          (Ideal.ofBits .f32 0x00000000#32) := by
  unfold hiddenArray
  rw [DenseLayer.hidden_apply, entry_first_bias, DenseLayer.reshape_row, DenseLayer.row_apply,
    entry_first_arg m ρ c main_arg1 (Or.inr (Or.inl rfl)), entry_first_arg m ρ c main_arg2 (Or.inr (Or.inr (Or.inl rfl)))]

/-- The array the second region multiplies: the first region's result aggregated over the same edges with the same weights. -/
theorem second_features (c : Dev nD) :
    V5 m ρ c main_v59
      = Host.scatterAdd scatter_S1000000x16_S5000000x1_S5000000x16_1_0_0_1
          (broadcastInDim S1000000x16 ![] bcast_S_S1000000x16 (constant (F := Ideal) S_ .f32 0x00000000#32))
          (V3 m ρ c main_v43)
          (mulf (Host.gather gather_S1000000x16_S5000000x1_S5000000x16_1_0_n_n_0_1_116 (hiddenArray (V3 m ρ) c) (V3 m ρ c main_v37))
            (broadcastInDim S5000000x16 ![0, 1] bcast_S5000000x1_S5000000x16_0_1
              (broadcastInDim S5000000x1 ![0] bcast_S5000000_S5000000x1_0 (V3 m ρ c main_v31)))) := by
  rw [entry_second_features, across_first m ρ c main_v6 (by decide), across_first m ρ c main_v3 (by decide),
    across_first m ρ c main_v31 (by decide), exit_first_result, final_first, sources_again, targets_again]

/-- The array the second region multiplies, at node `n` and hidden unit `j`. -/
theorem second_features_apply (c : Dev nD) (hS : V3 m ρ c main_v37 = S) (hD : V3 m ρ c main_v43 = D) (hQ : V3 m ρ c main_v31 = Q)
    (n : Fin 1000000) (j : Fin 16) :
    agg2 m ρ c (ix2 n j)
      = 0 + ∑ e ∈ into D n, hiddenArray (V3 m ρ) c (ix2 (srcRow nodes_pos S e) j) * Q (ix1 e) := by
  subst hS hD hQ
  dsimp only [agg2]
  rw [second_features]
  exact aggregate_apply gatherK16 scatterK16 nodes_pos (by decide) _ _ _ _ _ _ _ n j

/-- The logits the second region forms, at node `n` and class `k`. -/
theorem logit_apply (c : Dev nD) (n : Fin 1000000) (k : Fin 2) :
    DenseLayer.affine (M := 1000000) (K := 16) (N := 2) (V5 m ρ c main_v59) (V5 m ρ c main_arg3) (V5 m ρ c main_v60) (ix2 n k)
      = (∑ j : Fin 16, agg2 m ρ c (ix2 n j) * w2Arr m c (ix2 j k)) + b2Arr m c (ix1 k) := by
  rw [DenseLayer.affine_apply, entry_second_bias, DenseLayer.reshape_row, DenseLayer.row_apply, entry_second_weights,
    across_first m ρ c main_arg3 (by decide), across_first m ρ c main_arg4 (by decide),
    entry_first_arg m ρ c main_arg3 (Or.inr (Or.inr (Or.inr (Or.inl rfl)))),
    entry_first_arg m ρ c main_arg4 (Or.inr (Or.inr (Or.inr (Or.inr (Or.inl rfl)))))]

/-- THE RESULT ARRAY at the last boundary, at node `p` and class `k`: the log-softmax of row `p` of the logits. -/
theorem result_apply (c : Dev nD) (p : Fin 1000000) (k : Fin 2) :
    W6 m ρ c (Proc.devRef .tc main_v61) (ix2 p k)
      = RowLogSoftmax.logSoftmax (fun k' : Fin 2 =>
          (∑ j : Fin 16, agg2 m ρ c (ix2 p j) * w2Arr m c (ix2 j k')) + b2Arr m c (ix1 k')) k := by
  have h : W6 m ρ c (Proc.devRef .tc main_v61) = classArray (V5 m ρ) c :=
    (W6_arr m ρ c 3).trans (final_second (V5 m ρ) c)
  rw [h]
  show RowLogSoftmax.logSoftmax (fun k' : Fin 2 => DenseLayer.affine (M := 1000000) (K := 16) (N := 2)
    (V5 m ρ c main_v59) (V5 m ρ c main_arg3) (V5 m ρ c main_v60) (ix2 p k')) k = _
  exact congrArg (fun l => RowLogSoftmax.logSoftmax l k) (funext fun k' => logit_apply m ρ c p k')

end Cert.KernelIdeal.Whole

end
-- ==== Proof.RefValue.lean ====
/-
  THE REFERENCE'S RESULT, READ AT ONE ENTRY.

  The reference is a two-layer graph convolution: each layer multiplies the node features by its weight matrix, gathers
  the products at the edges' sources, weighs each by its edge's weight, scatter-adds them at the edges' targets and
  adds the bias; between the layers the maximum with zero, after them the log-softmax of each row. Read at one entry:

      pre-activation  (n, j) = (0 + ∑ over the edges e into n, (∑ i, x (src e, i) · W1 (i, j)) · q e) + b1 j
      hidden          (n, j) = max (pre-activation (n, j)) 0
      logit           (n, c) = (0 + ∑ over the edges e into n, (∑ j, hidden (src e, j) · W2 (j, c)) · q e) + b2 c
      result          (p, c) = log-softmax of row p of the logits, at c.

  The edges' source indices, target indices and weights are the values the program itself computes from the edge list
  (its stages for the wrapped sources, the targets and the product of the two endpoint normalisers), used as they are.
-/
import proofs.«152186_j47614007443467_2_alg».proof.Proof.RefRead
import proofs.«152186_j47614007443467_2_alg».proof.Proof.LibAggregate
import proofs.«152186_j47614007443467_2_alg».proof.Proof.LibPlainDot
import proofs.«152186_j47614007443467_2_alg».proof.Proof.LibRowLogSoftmax
import proofs.«152186_j47614007443467_2_alg».proof.Proof.LibBroadcast
import Idealize.ShloMosaic.PureOps.Ideal.Laws

set_option maxRecDepth 16384

noncomputable section

open scoped BigOperators

namespace Cert.ReferenceIdeal.Whole

open Idealize.ShloMosaic Idealize.ShloMosaic.ValueIdx
open Cert.ReferenceIdeal Cert.ReferenceIdeal.Gen Cert.ReferenceIdeal.ReadP Cert.RowGS Cert.Aggregate

/-- There is at least one node. -/
theorem nodes_pos : 0 < 1000000 := by decide

/-- The edges' gather indices: the sources, a negative one wrapped by the number of nodes. -/
abbrev srcIdx (x5 : (⟨S2x4000000, .i32⟩ : BufTy).Contents (Elt Ideal)) : IVec ⟨2, ![5000000, 1]⟩ 32 := val_main_v38 (F := Ideal) x5
/-- The edges' scatter indices: the targets. -/
abbrev dstIdx (x5 : (⟨S2x4000000, .i32⟩ : BufTy).Contents (Elt Ideal)) : IVec ⟨2, ![5000000, 1]⟩ 32 := val_main_v44 (F := Ideal) x5
/-- The edges' weights: the product of the normalisers of the two endpoints. -/
abbrev edgeW (x5 : (⟨S2x4000000, .i32⟩ : BufTy).Contents (Elt Ideal)) : FVec Ideal ⟨1, ![5000000]⟩ .f32 := val_main_v31 (F := Ideal) x5

/-- The source row of edge `e`: its gather index clamped into the table. -/
abbrev src (x5 : (⟨S2x4000000, .i32⟩ : BufTy).Contents (Elt Ideal)) (e : Fin 5000000) : Fin 1000000 := srcRow nodes_pos (srcIdx x5) e

theorem gather16 : IsRowGather (N := 1000000) (E := 5000000) (C := 16) gather_S1000000x16_S5000000x1_S5000000x16_1_0_n_n_0_1_116 :=
  ⟨rfl, rfl, rfl, rfl, rfl, rfl, rfl⟩
theorem gather2 : IsRowGather (N := 1000000) (E := 5000000) (C := 2) gather_S1000000x2_S5000000x1_S5000000x2_1_0_n_n_0_1_12 :=
  ⟨rfl, rfl, rfl, rfl, rfl, rfl, rfl⟩
theorem scatter16 : IsRowScatter (N := 1000000) (E := 5000000) (C := 16) scatter_S1000000x16_S5000000x1_S5000000x16_1_0_0_1 :=
  ⟨rfl, rfl, rfl, rfl⟩
theorem scatter2 : IsRowScatter (N := 1000000) (E := 5000000) (C := 2) scatter_S1000000x2_S5000000x1_S5000000x2_1_0_0_1 :=
  ⟨rfl, rfl, rfl, rfl⟩
theorem plain1 : PlainDot.IsPlain (M := 1000000) (K := 18) (N := 16) dot_S1000000x18_S18x16_S1000000x16_1_0_0_1_n_n :=
  ⟨rfl, rfl, rfl, rfl, rfl, rfl⟩
theorem plain2 : PlainDot.IsPlain (M := 1000000) (K := 16) (N := 2) dot_S1000000x16_S16x2_S1000000x2_1_0_0_1_n_n :=
  ⟨rfl, rfl, rfl, rfl, rfl, rfl⟩

variable (x0 : (⟨S1000000x18, .f32⟩ : BufTy).Contents (Elt Ideal)) (x1 : (⟨S18x16, .f32⟩ : BufTy).Contents (Elt Ideal)) (x2 : (⟨S16, .f32⟩ : BufTy).Contents (Elt Ideal))
  (x3 : (⟨S16x2, .f32⟩ : BufTy).Contents (Elt Ideal)) (x4 : (⟨S2, .f32⟩ : BufTy).Contents (Elt Ideal)) (x5 : (⟨S2x4000000, .i32⟩ : BufTy).Contents (Elt Ideal))

/-- The second layer gathers at the same indices as the first (the same operations on the same edge list)… -/
theorem sources_again : val_main_v56 (F := Ideal) x5 = val_main_v38 (F := Ideal) x5 := rfl
/-- … and scatters at the same indices. -/
theorem targets_again : val_main_v62 (F := Ideal) x5 = val_main_v44 (F := Ideal) x5 := rfl

/-- The first layer before its activation, at node `n` and hidden unit `j`. -/
theorem pre_hidden_apply (n : Fin 1000000) (j : Fin 16) :
    val_main_v48 (F := Ideal) x0 x1 x2 x5 (ix2 n j)
      = (0 + ∑ e ∈ into (dstIdx x5) n, (∑ i : Fin 18, x0 (ix2 (src x5 e) i) * x1 (ix2 i j)) * edgeW x5 (ix1 e))
        + x2 (ix1 j) := by
  rw [val_main_v48_apply, Ideal.addf_def]
  refine congrArg₂ (· + ·) ?_ ?_
  · unfold val_main_v45 val_main_v42 val_main_v39 val_main_v41 val_main_v40 val_main_v43 val_main_cst_9 val_main_v32
    refine (aggregate_apply gather16 scatter16 nodes_pos (by decide) _ (val_main_v38 (F := Ideal) x5)
      (val_main_v44 (F := Ideal) x5) (val_main_v31 (F := Ideal) x5) _ _ _ n j).trans ?_
    refine congrArg (0 + ·) (Finset.sum_congr rfl fun e _ => ?_)
    rw [PlainDot.dotGeneral_apply plain1]
  · unfold val_main_v47 val_main_v46
    exact Bcast.bias_rows_apply (by decide) x2 _ _ n j

/-- The hidden layer, at node `n` and hidden unit `j`. -/
theorem hidden_apply (n : Fin 1000000) (j : Fin 16) :
    val_main_v49 (F := Ideal) x0 x1 x2 x5 (ix2 n j)
      = max ((0 + ∑ e ∈ into (dstIdx x5) n, (∑ i : Fin 18, x0 (ix2 (src x5 e) i) * x1 (ix2 i j)) * edgeW x5 (ix1 e))
        + x2 (ix1 j)) (Ideal.ofBits .f32 0x00000000#32) := by
  rw [val_main_v49_apply, Ideal.maximumf_def]
  refine congrArg₂ max (pre_hidden_apply x0 x1 x2 x5 n j) ?_
  rw [val_main_call1_v0_apply, val_main_call1_cst_apply, Ideal.ofBits_def]

/-- The logits, at node `n` and class `c`, from the hidden layer. -/
theorem logit_apply (n : Fin 1000000) (c : Fin 2) :
    val_main_v66 (F := Ideal) x0 x1 x2 x3 x4 x5 (ix2 n c)
      = (0 + ∑ e ∈ into (dstIdx x5) n,
            (∑ j : Fin 16, val_main_v49 (F := Ideal) x0 x1 x2 x5 (ix2 (src x5 e) j) * x3 (ix2 j c)) * edgeW x5 (ix1 e))
        + x4 (ix1 c) := by
  rw [val_main_v66_apply, Ideal.addf_def]
  refine congrArg₂ (· + ·) ?_ ?_
  · unfold val_main_v63 val_main_v60 val_main_v57 val_main_v59 val_main_v58 val_main_v61 val_main_cst_12 val_main_v50
    rw [sources_again, targets_again]
    refine (aggregate_apply gather2 scatter2 nodes_pos (by decide) _ (val_main_v38 (F := Ideal) x5)
      (val_main_v44 (F := Ideal) x5) (val_main_v31 (F := Ideal) x5) _ _ _ n c).trans ?_
    refine congrArg (0 + ·) (Finset.sum_congr rfl fun e _ => ?_)
    rw [PlainDot.dotGeneral_apply plain2]
  · unfold val_main_v65 val_main_v64
    exact Bcast.bias_rows_apply (by decide) x4 _ _ n c

/-- The result, at node `p` and class `c`: the log-softmax of row `p` of the logits. -/
theorem result_apply (p : Fin 1000000) (c : Fin 2) :
    val_main_v67 (F := Ideal) x0 x1 x2 x3 x4 x5 (ix2 p c)
      = RowLogSoftmax.logSoftmax (fun k => val_main_v66 (F := Ideal) x0 x1 x2 x3 x4 x5 (ix2 p k)) c :=
  RowLogSoftmax.host_logSoftmax (R := 1000000) (C := 2) (val_main_v66 (F := Ideal) x0 x1 x2 x3 x4 x5)
    reducesTo_S1000000x2_S1000000_d1 h_S_ bcast_S_S1000000 bcast_S1000000_S1000000x1_0 bcast_S1000000x1_S1000000x2_0_1
    (by decide) p c

end Cert.ReferenceIdeal.Whole

end
-- ==== Proof.LibVecGather.lean ====
/-
  VECTOR GATHER READ AT ONE ENTRY (a general lemma: any extents, any element type).

  A vector `x : [N]` is gathered at `E` start indices `S : [E, 1]` (what `x[idx]` lowers to for a rank-1 table):
  result entry `e` is the vector's entry at `S[e, 0]`, the start index read as a signed integer and clamped into
  `[0, N − 1]` — the same row `Cert.RowGS.srcRow` names for a row gather:
      gather x S (e) = x (srcRow S e)                                                  (`gather_vec_apply`).
  The one operand axis is collapsed and is the one the start index addresses; there is no offset axis and nothing is
  batched, so the operand coordinate is the clamped start alone.
-/
import proofs.«152186_j47614007443467_2_alg».proof.Proof.LibRowGatherScatter

noncomputable section

namespace Cert.VecGather

open Idealize.ShloMosaic Idealize.ShloMosaic.ValueIdx Cert.RowGS

variable {N E w : Nat}

/-- `g` gathers single entries of an `[N]` vector at `[E, 1]` start indices. -/
structure IsVecGather (g : GatherDims ⟨1, ![N]⟩ ⟨2, ![E, 1]⟩ ⟨1, ![E]⟩) : Prop where
  od : g.offsetDims = []
  cs : g.collapsedSliceDims = [0]
  ob : g.operandBatchingDims = []
  sb : g.startIndicesBatchingDims = []
  sim : g.startIndexMap = [0]
  ivd : g.indexVectorDim = 1
  ss : g.sliceSizes = ![1]

/-- The vector-gather dimension numbers as a literal record (any proof `wf` of their conditions). -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at the literal record, read at `e`: on the one operand axis the coordinate is the clamped start (no
    batching coordinate; the axis is collapsed, so no offset). -/
theorem gather_vecDims_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (S : IVec ⟨2, ![E, 1]⟩ w) (e : Fin E) :
    Host.gather (vecGatherDims N E wf) x S (ix1 e) = x (ix1 (srcRow hN S e)) := by
  unfold Host.gather
  congr 1
  funext a
  refine Fin.ext ?_
  obtain rfl : a = (0 : Fin 1) := Subsingleton.elim _ _
  show (vecGatherDims N E wf).start (ix1 e) S 0 + (vecGatherDims N E wf).batchCoord (ix1 e) 0
    + (vecGatherDims N E wf).offCoord (ix1 e) 0 = _
  rw [GatherDims.batchCoord_eq_zero _ _ _ List.not_mem_nil]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e)
      ⟨List.idxOf (0 : Fin 1) (vecGatherDims N E wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE VECTOR GATHER READ AT `e`: the vector at `srcRow S e` (the start index `S[e, 0]`, read signed and clamped
    into `[0, N − 1]`). -/
theorem gather_vec_apply {α : Type} {g : GatherDims ⟨1, ![N]⟩ ⟨2, ![E, 1]⟩ ⟨1, ![E]⟩} (hg : IsVecGather g)
    (hN : 0 < N) (x : (⟨1, ![N]⟩ : Shape).Idx → α) (S : IVec ⟨2, ![E, 1]⟩ w) (e : Fin E) :
    Host.gather g x S (ix1 e) = x (ix1 (srcRow hN S e)) := by
  obtain ⟨od, cs, ob, sb, sim, ivd, ss, wf⟩ := g
  obtain ⟨h1, h2, h3, h4, h5, h6, h7⟩ := hg
  dsimp only at h1 h2 h3 h4 h5 h6 h7
  subst h1 h2 h3 h4 h5 h6 h7
  exact gather_vecDims_apply hN wf x S e

end Cert.VecGather

end
-- ==== Proof.LibGcnLaw.lean ====
/-
  The algebra that joins the two programs, on the extended reals.

  A graph-convolution layer sums, over the edges `e` that land on a node `n`, the source node's feature row scaled by
  the two ends' normalisers `d (src e) · d n`. One program multiplies every message by both factors before summing;
  the other scales the source rows by `d (src e)` first, sums, and multiplies the sum by `d n` afterwards. The two
  agree because `d n` is a non-negative number that is not `+∞`: such a factor distributes over a sum of extended
  reals whatever the summands are (an infinite summand of either sign included), while `+∞` or a negative factor would
  not. The normaliser is `1/√deg` where the degree is positive and `0` elsewhere, so it is non-negative and never
  `+∞` for every extended-real degree.
-/
import Idealize.ShloMosaic.PureOps.Ideal

noncomputable section

open scoped BigOperators

namespace Cert.GcnLaw

open Idealize.ShloMosaic

/-- A non-negative factor other than `+∞` distributes over a finite sum of extended reals. -/
theorem mul_sum {ι : Type} (s : Finset ι) (d : EReal) (h0 : 0 ≤ d) (ht : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top h0 ht, ih]

/-- THE LAYER LAW. Scaling the sum of the pre-scaled messages `a e · q e` by the target's normaliser `d` is summing the
    messages each scaled by the product `q e · d` of the two normalisers. (Both sums start from zero, as a scatter-add
    into a zero array does.) -/
theorem layer {ι : Type} (s : Finset ι) (d : EReal) (h0 : 0 ≤ d) (ht : d ≠ ⊤) (a q : ι → EReal) :
    d * (0 + ∑ e ∈ s, a e * q e) = 0 + ∑ e ∈ s, a e * (q e * d) := by
  rw [zero_add, zero_add, mul_sum s d h0 ht]
  refine Finset.sum_congr rfl fun e _ => ?_
  rw [mul_comm d, mul_assoc]

/-- The normaliser of a degree `x`: `1/√x` where `x` is positive, `0` elsewhere. -/
def normaliser (x : EReal) : EReal := if 0 < x then Ideal.rsqrt x else 0

theorem normaliser_nonneg (x : EReal) : 0 ≤ normaliser x := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact_mod_cast (inv_nonneg.mpr (Real.sqrt_nonneg r))
  · exact le_refl _

theorem normaliser_ne_top (x : EReal) : normaliser x ≠ ⊤ := by
  unfold normaliser
  split
  · rename_i hx
    induction x using EReal.rec with
    | bot => exact absurd hx (by simp)
    | top => simp
    | coe r =>
      have hr : 0 < r := by exact_mod_cast hx
      rw [Ideal.rsqrt_coe, if_neg (not_lt.mpr hr.le), if_neg hr.ne']
      exact EReal.coe_ne_top _
  · exact EReal.zero_ne_top

/-- The selection `where(x > 0, rsqrt x, 0)` as the programs spell it — a comparison's one-bit result choosing between
    the reciprocal square root and zero — is the normaliser. -/
theorem select_eq_normaliser (x : EReal) :
    Scalar.select (Ideal.cmp .ogt x 0) (Ideal.rsqrt x) (0 : EReal) = normaliser x := by
  unfold Scalar.select normaliser Ideal.cmp
  by_cases h : (0 : EReal) < x
  · simp [h]
  · simp [h]

end Cert.GcnLaw

end
-- ==== Proof.LibRowScale.lean ====
/-
  A ROW FACTOR MOVED ACROSS A CONTRACTION, on the extended reals (general: any finite index type, no program needed).

  A matrix product's row is scaled by a factor `s` either after the contraction, `(Σ_q x q · w q) · s`, or on the left
  operand before it, `Σ_q (x q · s) · w q`. On the extended reals the two agree whenever `s` is non-negative and not
  `+∞`: such a factor distributes over a finite sum whatever the summands are (infinite ones of either sign included),
  and the rest is commutativity and associativity of the product. The degree normaliser `1/√(max 1 d)` is such a
  factor for every extended-real `d`: its argument is at least one, so it lies in `[0, 1]`.
-/
import proofs.«152186_j47614007443467_2_alg».proof.Proof.LibGcnLaw
import Idealize.ShloMosaic.PureOps.Ideal

noncomputable section

open scoped BigOperators

namespace Cert.RowScale

open Idealize.ShloMosaic

/-- Scaling a contraction's result by a non-negative factor other than `+∞` is scaling its left operand. -/
theorem sum_mul_scale {ι : Type} [Fintype ι] (s : EReal) (h0 : 0 ≤ s) (ht : s ≠ ⊤) (x w : ι → EReal) :
    (∑ q, x q * w q) * s = ∑ q, (x q * s) * w q := by
  rw [mul_comm, Cert.GcnLaw.mul_sum Finset.univ s h0 ht]
  refine Finset.sum_congr rfl fun q _ => ?_
  rw [mul_comm s, mul_assoc, mul_comm (w q) s, ← mul_assoc]

/-- The f32 word of `1.0` is the number one. -/
theorem ofBits_one : Ideal.ofBits .f32 0x3F800000#32 = (1 : EReal) := by
  simp [Ideal.ofBits, Ideal.ieee, -EReal.coe_mul]; norm_num

/-- One is above `-∞`. -/
theorem not_one_le_bot : ¬ (1 : EReal) ≤ ⊥ :=
  not_le.mpr (by exact_mod_cast EReal.bot_lt_coe (1 : ℝ))

/-- The reciprocal square root of a number that is at least one is non-negative. -/
theorem rsqrt_nonneg_of_one_le (y : EReal) (hy : 1 ≤ y) : 0 ≤ Ideal.rsqrt y := by
  induction y using EReal.rec with
  | bot => exact absurd hy not_one_le_bot
  | top => simp
  | coe r =>
    have hr : (1 : ℝ) ≤ r := by exact_mod_cast hy
    have hr0 : 0 < r := lt_of_lt_of_le one_pos hr
    rw [Ideal.rsqrt_coe, if_neg (not_lt.mpr hr0.le), if_neg hr0.ne']
    exact_mod_cast (inv_nonneg.mpr (Real.sqrt_nonneg r))

/-- The reciprocal square root of a number that is at least one is not `+∞`. -/
theorem rsqrt_ne_top_of_one_le (y : EReal) (hy : 1 ≤ y) : Ideal.rsqrt y ≠ ⊤ := by
  induction y using EReal.rec with
  | bot => exact absurd hy not_one_le_bot
  | top => simp
  | coe r =>
    have hr : (1 : ℝ) ≤ r := by exact_mod_cast hy
    have hr0 : 0 < r := lt_of_lt_of_le one_pos hr
    rw [Ideal.rsqrt_coe, if_neg (not_lt.mpr hr0.le), if_neg hr0.ne']
    exact EReal.coe_ne_top _

/-- The normaliser of a degree `d`: `1/√(max 1 d)`, the one spelt by its f32 word. -/
def normaliser (d : EReal) : EReal := Ideal.rsqrt (max (Ideal.ofBits .f32 0x3F800000#32) d)

theorem normaliser_nonneg (d : EReal) : 0 ≤ normaliser d :=
  rsqrt_nonneg_of_one_le _ (by rw [ofBits_one]; exact le_max_left _ _)

theorem normaliser_ne_top (d : EReal) : normaliser d ≠ ⊤ :=
  rsqrt_ne_top_of_one_le _ (by rw [ofBits_one]; exact le_max_left _ _)

end Cert.RowScale

end
-- ==== Proof.RefWeights.lean ====
/-
  THE EDGE WEIGHTS ARE REAL NUMBERS.

  A node's normaliser is  1/√(max(degree, 1))  where the degree is positive and  0  elsewhere. Whatever extended real
  the degree is, max(degree, 1) is at least one, so its reciprocal square root lies between 0 and 1: the normaliser
  is a real number in either case. An edge's weight is the product of the normalisers of its two endpoints (each read
  at the endpoint's index clamped into the table), so it is a real number too — with no assumption on the edge list.
-/
import proofs.«152186_j47614007443467_2_alg».proof.Proof.RefRead
import proofs.«152186_j47614007443467_2_alg».proof.Proof.LibVecGather
import proofs.«152186_j47614007443467_2_alg».proof.Proof.LibRowScale
import proofs.«152186_j47614007443467_2_alg».proof.Proof.LibRealSum
import Idealize.ShloMosaic.PureOps.Ideal.Laws

set_option maxRecDepth 16384

noncomputable section

namespace Cert.ReferenceIdeal.Whole

open Idealize.ShloMosaic Idealize.ShloMosaic.ValueIdx
open Cert.ReferenceIdeal Cert.ReferenceIdeal.Gen Cert.ReferenceIdeal.ReadP Cert.RowGS Cert.VecGather Cert.RealSum

variable (x5 : (⟨S2x4000000, .i32⟩ : BufTy).Contents (Elt Ideal))

theorem gatherVec : IsVecGather (N := 1000000) (E := 5000000) gather_S1000000_S5000000x1_S5000000_n_0_n_n_0_1_1 :=
  ⟨rfl, rfl, rfl, rfl, rfl, rfl, rfl⟩

/-- A node's normaliser is a real number, whatever its degree. -/
theorem isReal_normaliser (i : S1000000.Idx) : IsReal (val_main_v16 (F := Ideal) x5 i) := by
  rw [val_main_v16_apply]
  unfold Scalar.select
  split
  · rw [val_main_v15_apply, val_main_v14_apply, val_main_v13_apply, val_main_cst_2_apply, Ideal.hostUnary_rsqrt_def,
      Ideal.maximumf_def, Ideal.ofBits_def]
    have h1 : (1 : EReal) ≤ max (val_main_v10 (F := Ideal) x5 i) (Ideal.ofBits .f32 0x3F800000#32) := by
      rw [RowScale.ofBits_one]
      exact le_max_right _ _
    exact isReal_of_nonneg_of_ne_top (RowScale.rsqrt_nonneg_of_one_le _ h1) (RowScale.rsqrt_ne_top_of_one_le _ h1)
  · rw [val_main_call0_v1_apply, val_main_call0_v0_apply, val_main_cst_3_apply, Ideal.ofBits_def, Ideal.ofBits_zero_f32]
    exact isReal_zero

/-- An edge's weight is a real number. -/
theorem isReal_edgeW (e : Fin 5000000) : IsReal (val_main_v31 (F := Ideal) x5 (ix1 e)) := by
  rw [val_main_v31_apply, Ideal.mulf_def]
  refine IsReal.mul ?_ ?_
  · unfold val_main_v23
    rw [gather_vec_apply gatherVec (by decide : 0 < 1000000)]
    exact isReal_normaliser x5 _
  · unfold val_main_v30
    rw [gather_vec_apply gatherVec (by decide : 0 < 1000000)]
    exact isReal_normaliser x5 _

end Cert.ReferenceIdeal.Whole

end
-- ==== Proof.LibLayerOrders.lean ====
/-
  THE TWO ORDERS OF ONE GRAPH-CONVOLUTION LAYER, AT ONE NODE.

  A layer multiplies the node features by a weight matrix and aggregates over the edges into each node. One program
  aggregates first and multiplies after,

      ∑ k, (0 + ∑ e, a e k · q e) · w k  +  b,

  the other multiplies first and aggregates after,

      (0 + ∑ e, (∑ k, a e k · w k) · q e)  +  b,

  where `e` runs over the edges into the node, `a e k` is the feature `k` of the edge's source, `q e` the edge's
  weight, `w k` a column of the weight matrix and `b` the bias. The two are equal when every feature, weight-matrix
  entry and edge weight is a real number: both are then the same finite double sum of real products. (On the extended
  reals the law needs that: a product does not distribute over a sum that mixes +∞ and −∞.) The result of a layer
  followed by the maximum with zero is again real when the bias is, which is what the second layer needs of the first.
-/
import proofs.«152186_j47614007443467_2_alg».proof.Proof.LibRealSum
import Idealize.ShloMosaic.PureOps.Ideal.Laws

noncomputable section

open scoped BigOperators

namespace Cert.GcnAlgebra

open Idealize.ShloMosaic Cert.RealSum

variable {ι : Type} {K : Nat}

/-- Aggregate-then-multiply equals multiply-then-aggregate, at one node and one output column, for real entries. -/
theorem layer_orders (s : Finset ι) (a : ι → Fin K → EReal) (w : Fin K → EReal) (q : ι → EReal) (b : EReal)
    (ha : ∀ e k, IsReal (a e k)) (hw : ∀ k, IsReal (w k)) (hq : ∀ e, IsReal (q e)) :
    (∑ k, (0 + ∑ e ∈ s, a e k * q e) * w k) + b = (0 + ∑ e ∈ s, (∑ k, a e k * w k) * q e) + b :=
  congrArg (· + b) (commute s a w q ha hw hq).symm

/-- The aggregate of real features with real edge weights is real. -/
theorem isReal_aggregate (s : Finset ι) (f q : ι → EReal) (hf : ∀ e, IsReal (f e)) (hq : ∀ e, IsReal (q e)) :
    IsReal (0 + ∑ e ∈ s, f e * q e) :=
  isReal_zero.add (isReal_sum s _ fun e _ => (hf e).mul (hq e))

/-- A layer's output before the activation is real. -/
theorem isReal_layer (s : Finset ι) (a : ι → Fin K → EReal) (w : Fin K → EReal) (q : ι → EReal) (b : EReal)
    (ha : ∀ e k, IsReal (a e k)) (hw : ∀ k, IsReal (w k)) (hq : ∀ e, IsReal (q e)) (hb : IsReal b) :
    IsReal ((∑ k, (0 + ∑ e ∈ s, a e k * q e) * w k) + b) :=
  (isReal_sum _ _ fun k _ => (isReal_aggregate s (fun e => a e k) q (fun e => ha e k) hq).mul (hw k)).add hb

/-- The zero word of single precision is the real number zero. -/
theorem isReal_zeroWord : IsReal (Ideal.ofBits .f32 0x00000000#32) := by
  rw [Ideal.ofBits_zero_f32]; exact isReal_zero

end Cert.GcnAlgebra

end
-- ==== Proof.Bridge.lean ====
/-
  THE TWO PROGRAMS COMPUTE ONE FUNCTION OF THE ARGUMENTS.

  Both programs build the same edge data from the edge list by the same host operations — the wrapped source indices,
  the target indices, the weights —, so the kernel's buffers for them hold exactly the reference's stages. With the
  edge data shared, the two programs differ in one thing only: in each layer the kernel aggregates the features over
  the edges and then multiplies by the weight matrix, the reference multiplies and then aggregates. For real features,
  real weight matrices and real edge weights the two orders give the same number (a finite double sum of real
  products taken in two orders). The float inputs are real by the precondition; the edge weights are real whatever the
  edge list is; the hidden layer, a maximum of a real number and zero, is real again, which is what the second layer
  needs. So the logits agree entry by entry, and the results, the row-wise log-softmax of the logits, agree.
-/
import proofs.«152186_j47614007443467_2_alg».proof.Proof.KerValue
import proofs.«152186_j47614007443467_2_alg».proof.Proof.RefValue
import proofs.«152186_j47614007443467_2_alg».proof.Proof.RefWeights
import proofs.«152186_j47614007443467_2_alg».proof.Proof.LibLayerOrders

set_option maxRecDepth 16384

noncomputable section

open scoped BigOperators

namespace Cert.Bridge

open Idealize.ShloMosaic Idealize.ShloMosaic.TcCoe Idealize.ShloMosaic.ValueIdx Idealize.ShloMosaic.StableHlo
open Idealize.SL Idealize.SL.Sem
open Cert.RowGS Cert.Aggregate Cert.RealSum Cert.HostWalk

variable (m : (ℓ : Loc Cert.KernelIdeal.nD Cert.KernelIdeal.τ Cert.KernelIdeal.sig) → Buf (Elt Ideal) ℓ) (ρ : Dev Cert.KernelIdeal.nD → PrngReg)

/-! ## The edge data are shared -/

/-- The kernel's gather indices are the reference's stage for them. -/
theorem sources_same (c : Dev Cert.KernelIdeal.nD) :
    Cert.KernelIdeal.Gen.V3 m ρ c Cert.KernelIdeal.main_v37 = Cert.ReferenceIdeal.ReadP.val_main_v38 (F := Ideal) (m ((c : Thread Cert.KernelIdeal.nD Cert.KernelIdeal.τ).loc Cert.KernelIdeal.main_arg5)) := by
  dsimp only [Cert.KernelIdeal.Gen.V3, Cert.KernelIdeal.Gen.W3, Cert.KernelIdeal.Gen.W2, Cert.KernelIdeal.Gen.W1, Cert.KernelIdeal.Gen.W0]
  walk_back [Cert.KernelIdeal.Gen.hostOps0, Cert.KernelIdeal.Gen.hostOps0_1, Cert.KernelIdeal.Gen.hostOps0_2]
  rfl

/-- The kernel's scatter indices are the reference's stage for them. -/
theorem targets_same (c : Dev Cert.KernelIdeal.nD) :
    Cert.KernelIdeal.Gen.V3 m ρ c Cert.KernelIdeal.main_v43 = Cert.ReferenceIdeal.ReadP.val_main_v44 (F := Ideal) (m ((c : Thread Cert.KernelIdeal.nD Cert.KernelIdeal.τ).loc Cert.KernelIdeal.main_arg5)) := by
  dsimp only [Cert.KernelIdeal.Gen.V3, Cert.KernelIdeal.Gen.W3, Cert.KernelIdeal.Gen.W2, Cert.KernelIdeal.Gen.W1, Cert.KernelIdeal.Gen.W0]
  walk_back [Cert.KernelIdeal.Gen.hostOps0, Cert.KernelIdeal.Gen.hostOps0_1, Cert.KernelIdeal.Gen.hostOps0_2]
  rfl

/-- The kernel's edge weights are the reference's stage for them. -/
theorem weights_same (c : Dev Cert.KernelIdeal.nD) :
    Cert.KernelIdeal.Gen.V3 m ρ c Cert.KernelIdeal.main_v31 = Cert.ReferenceIdeal.ReadP.val_main_v31 (F := Ideal) (m ((c : Thread Cert.KernelIdeal.nD Cert.KernelIdeal.τ).loc Cert.KernelIdeal.main_arg5)) := by
  dsimp only [Cert.KernelIdeal.Gen.V3, Cert.KernelIdeal.Gen.W3, Cert.KernelIdeal.Gen.W2, Cert.KernelIdeal.Gen.W1, Cert.KernelIdeal.Gen.W0]
  walk_back [Cert.KernelIdeal.Gen.hostOps0, Cert.KernelIdeal.Gen.hostOps0_1, Cert.KernelIdeal.Gen.hostOps0_2]
  rfl

/-! ## The layers agree -/

section Layers

variable (c : Dev Cert.KernelIdeal.nD)

/-- The hidden layers agree: the first region's result is the reference's hidden stage, entry by entry. -/
theorem hidden_same (h0 : ∀ i, IsReal ((m ((c : Thread Cert.KernelIdeal.nD Cert.KernelIdeal.τ).loc Cert.KernelIdeal.main_arg0)) i))
    (h1 : ∀ i, IsReal ((m ((c : Thread Cert.KernelIdeal.nD Cert.KernelIdeal.τ).loc Cert.KernelIdeal.main_arg1)) i)) (n : Fin 1000000) (j : Fin 16) :
    Cert.KernelIdeal.Whole.hiddenArray (Cert.KernelIdeal.Gen.V3 m ρ) c (ix2 n j)
      = Cert.ReferenceIdeal.ReadP.val_main_v49 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg5)) (ix2 n j) := by
  rw [Cert.KernelIdeal.Whole.hidden_apply, Cert.ReferenceIdeal.Whole.hidden_apply]
  refine congrArg (fun z : EReal => max z (Ideal.ofBits .f32 0x00000000#32)) ?_
  simp only [Cert.KernelIdeal.Whole.features_apply m ρ c (sources_same m ρ c) (targets_same m ρ c) (weights_same m ρ c)]
  exact GcnAlgebra.layer_orders _ (fun e i => (m ((c : Thread Cert.KernelIdeal.nD Cert.KernelIdeal.τ).loc Cert.KernelIdeal.main_arg0)) (ix2 (Cert.ReferenceIdeal.Whole.src (m ((c : Thread Cert.KernelIdeal.nD Cert.KernelIdeal.τ).loc Cert.KernelIdeal.main_arg5)) e) i))
    (fun i => (m ((c : Thread Cert.KernelIdeal.nD Cert.KernelIdeal.τ).loc Cert.KernelIdeal.main_arg1)) (ix2 i j)) (fun e => Cert.ReferenceIdeal.Whole.edgeW (m ((c : Thread Cert.KernelIdeal.nD Cert.KernelIdeal.τ).loc Cert.KernelIdeal.main_arg5)) (ix1 e)) _
    (fun e i => h0 _) (fun i => h1 _) (fun e => Cert.ReferenceIdeal.Whole.isReal_edgeW _ e)

/-- The hidden layer is real. -/
theorem isReal_hidden (h0 : ∀ i, IsReal ((m ((c : Thread Cert.KernelIdeal.nD Cert.KernelIdeal.τ).loc Cert.KernelIdeal.main_arg0)) i))
    (h1 : ∀ i, IsReal ((m ((c : Thread Cert.KernelIdeal.nD Cert.KernelIdeal.τ).loc Cert.KernelIdeal.main_arg1)) i))
    (h2 : ∀ i, IsReal ((m ((c : Thread Cert.KernelIdeal.nD Cert.KernelIdeal.τ).loc Cert.KernelIdeal.main_arg2)) i)) (n : Fin 1000000) (j : Fin 16) :
    IsReal (Cert.ReferenceIdeal.ReadP.val_main_v49 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg5)) (ix2 n j)) := by
  rw [Cert.ReferenceIdeal.Whole.hidden_apply]
  refine IsReal.max (IsReal.add (isReal_zero.add (isReal_sum _ _ fun e _ => IsReal.mul ?_ (Cert.ReferenceIdeal.Whole.isReal_edgeW _ e))) (h2 _))
    GcnAlgebra.isReal_zeroWord
  exact isReal_sum _ _ fun i _ => (h0 _).mul (h1 _)

/-- The logits agree, entry by entry. -/
theorem logit_same (h0 : ∀ i, IsReal ((m ((c : Thread Cert.KernelIdeal.nD Cert.KernelIdeal.τ).loc Cert.KernelIdeal.main_arg0)) i))
    (h1 : ∀ i, IsReal ((m ((c : Thread Cert.KernelIdeal.nD Cert.KernelIdeal.τ).loc Cert.KernelIdeal.main_arg1)) i))
    (h2 : ∀ i, IsReal ((m ((c : Thread Cert.KernelIdeal.nD Cert.KernelIdeal.τ).loc Cert.KernelIdeal.main_arg2)) i))
    (h3 : ∀ i, IsReal ((m ((c : Thread Cert.KernelIdeal.nD Cert.KernelIdeal.τ).loc Cert.KernelIdeal.main_arg3)) i)) (p : Fin 1000000) (k : Fin 2) :
    (∑ j : Fin 16, Cert.KernelIdeal.Whole.agg2 m ρ c (ix2 p j) * Cert.KernelIdeal.Whole.w2Arr m c (ix2 j k)) + Cert.KernelIdeal.Whole.b2Arr m c (ix1 k)
      = Cert.ReferenceIdeal.ReadP.val_main_v66 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (ix2 p k) := by
  rw [Cert.ReferenceIdeal.Whole.logit_apply]
  simp only [Cert.KernelIdeal.Whole.second_features_apply m ρ c (sources_same m ρ c) (targets_same m ρ c) (weights_same m ρ c),
    hidden_same m ρ c h0 h1]
  exact GcnAlgebra.layer_orders _
    (fun e j => Cert.ReferenceIdeal.ReadP.val_main_v49 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg5)) (ix2 (Cert.ReferenceIdeal.Whole.src (m ((c : Thread Cert.KernelIdeal.nD Cert.KernelIdeal.τ).loc Cert.KernelIdeal.main_arg5)) e) j))
    (fun j => (m ((c : Thread Cert.KernelIdeal.nD Cert.KernelIdeal.τ).loc Cert.KernelIdeal.main_arg3)) (ix2 j k)) (fun e => Cert.ReferenceIdeal.Whole.edgeW (m ((c : Thread Cert.KernelIdeal.nD Cert.KernelIdeal.τ).loc Cert.KernelIdeal.main_arg5)) (ix1 e)) _
    (fun e j => isReal_hidden m c h0 h1 h2 _ j) (fun j => h3 _) (fun e => Cert.ReferenceIdeal.Whole.isReal_edgeW _ e)

/-- THE RESULTS AGREE: the kernel's result array at the last boundary is the reference's last stage of the same arguments. -/
theorem result_same (h0 : ∀ i, IsReal ((m ((c : Thread Cert.KernelIdeal.nD Cert.KernelIdeal.τ).loc Cert.KernelIdeal.main_arg0)) i))
    (h1 : ∀ i, IsReal ((m ((c : Thread Cert.KernelIdeal.nD Cert.KernelIdeal.τ).loc Cert.KernelIdeal.main_arg1)) i))
    (h2 : ∀ i, IsReal ((m ((c : Thread Cert.KernelIdeal.nD Cert.KernelIdeal.τ).loc Cert.KernelIdeal.main_arg2)) i))
    (h3 : ∀ i, IsReal ((m ((c : Thread Cert.KernelIdeal.nD Cert.KernelIdeal.τ).loc Cert.KernelIdeal.main_arg3)) i)) :
    Cert.KernelIdeal.Gen.W6 m ρ c (Proc.devRef .tc Cert.KernelIdeal.main_v61)
      = Cert.ReferenceIdeal.ReadP.val_main_v67 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  funext i
  obtain ⟨p, k, rfl⟩ : ∃ (p : Fin 1000000) (k : Fin 2), i = ix2 p k := ⟨i 0, i 1, eq_ix2 i⟩
  rw [Cert.KernelIdeal.Whole.result_apply, Cert.ReferenceIdeal.Whole.result_apply]
  exact congrArg (fun l => RowLogSoftmax.logSoftmax l k) (funext fun k' => logit_same m ρ c h0 h1 h2 h3 p k')

end Layers

end Cert.Bridge

end
-- ==== Proof.lean ====
/-
  A TWO-LAYER GRAPH CONVOLUTION, AGGREGATE-THEN-MULTIPLY AGAINST MULTIPLY-THEN-AGGREGATE.

  Both programs take node features x [1000000, 18], weights W1 [18, 16], b1 [16], W2 [16, 2], b2 [2] and an edge list
  [2, 4000000], add a self-loop per node, weigh each edge by the product of its endpoints' normalisers 1/√(max(deg, 1))
  (0 where the degree is not positive), and return the row-wise log-softmax of

      layer2(max(layer1(x), 0)),     layer(h) = aggregate over the edges into each node of (h · W) + b.

  The reference multiplies by W and then aggregates. The kernel aggregates on the host and then, in a kernel region that
  walks the rows in 100 blocks of 10000, multiplies by W, adds b and applies the layer's epilogue (the maximum with zero;
  the log-softmax). On the extended reals the two orders agree when every feature, weight and edge weight is a real
  number: the float inputs are real by the precondition, the edge weights are real for every edge list, and the hidden
  layer is real again. Out-of-range indices are treated alike by both programs (a source index is clamped, an edge with
  a target out of range lands nowhere), so nothing is assumed of the edge list.

  The frames of the two printed kernels are the generated ones; the reference's frame is its run with the result dropped.
  The idealization rewrote no operation, so `preserves` has nothing to state.
-/
import proofs.«152186_j47614007443467_2_alg».proof.Defs
import proofs.«152186_j47614007443467_2_alg».proof.Proof.Gen.Kernel
import proofs.«152186_j47614007443467_2_alg».proof.Proof.Gen.Kernel.Skeleton
import proofs.«152186_j47614007443467_2_alg».proof.Proof.Gen.Kernel.Launch
import proofs.«152186_j47614007443467_2_alg».proof.Proof.Gen.Kernel.Points
import proofs.«152186_j47614007443467_2_alg».proof.Proof.Gen.Kernel.Frame
import proofs.«152186_j47614007443467_2_alg».proof.Proof.Gen.KernelIdeal
import proofs.«152186_j47614007443467_2_alg».proof.Proof.Gen.KernelIdeal.Skeleton
import proofs.«152186_j47614007443467_2_alg».proof.Proof.Gen.KernelIdeal.Launch
import proofs.«152186_j47614007443467_2_alg».proof.Proof.Gen.KernelIdeal.Points
import proofs.«152186_j47614007443467_2_alg».proof.Proof.Gen.KernelIdeal.Frame
import proofs.«152186_j47614007443467_2_alg».proof.Proof.Gen.ReferenceIdeal
import proofs.«152186_j47614007443467_2_alg».proof.Proof.Gen.Pre_finite_inputs
import proofs.«152186_j47614007443467_2_alg».proof.Proof.KerRun
import proofs.«152186_j47614007443467_2_alg».proof.Proof.RefRun2
import proofs.«152186_j47614007443467_2_alg».proof.Proof.FiniteInputs
import proofs.«152186_j47614007443467_2_alg».proof.Proof.Bridge
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Whole.run m ρ)

/-- From memories agreeing on the arguments, the idealized kernel and the reference both run and end with equal
    results: the kernel's result array at its last boundary is the reference's last stage of the same arguments. -/
theorem algebraic : Cert.algebraic_KernelIdeal_ReferenceIdeal := by
  intro m ρ m' ρ' hpre hagree
  refine ⟨fun c => Cert.KernelIdeal.Gen.W6 m ρ c (Proc.devRef .tc Cert.KernelIdeal.main_v61),
    Cert.KernelIdeal.Whole.run_last m ρ, ?_⟩
  refine (θ_run Cert.ReferenceIdeal.defs _ _).mono (fun _ h c => ⟨(h c).1.trans ?_, (h c).2⟩)
    (Cert.ReferenceIdeal.Whole.run m' ρ')
  obtain ⟨h0, h1, h2, h3, h4⟩ := Cert.Pre_finite_inputs.Whole.reals_of_pre _ _ _ _ _ _ (hpre c)
  rw [(hagree c).1, (hagree c).2.1, (hagree c).2.2.1, (hagree c).2.2.2.1, (hagree c).2.2.2.2.1, (hagree c).2.2.2.2.2]
  exact (Cert.Bridge.result_same m ρ c h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
